-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S512x512 .f32) (main_arg1 : FVec F S512x512 .f32) (main_arg2 : FVec F S512x128 .f32) (main_arg3 : FVec F S128 .f32) (main_arg4 : FVec F S512x128 .f32) (main_arg5 : FVec F S128 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S512x512 : Shape := ⟨2, ![512, 512]⟩
abbrev S512x128 : Shape := ⟨2, ![512, 128]⟩
abbrev S128 : Shape := ⟨1, ![128]⟩
abbrev S1x128 : Shape := ⟨2, ![1, 128]⟩
abbrev S1x1 : Shape := ⟨2, ![1, 1]⟩
abbrev S8x128 : Shape := ⟨2, ![8, 128]⟩
abbrev S1x512x128 : Shape := ⟨3, ![1, 512, 128]⟩
abbrev S8x1x128 : Shape := ⟨3, ![8, 1, 128]⟩
abbrev S8x512x128 : Shape := ⟨3, ![8, 512, 128]⟩
abbrev S8x512 : Shape := ⟨2, ![8, 512]⟩
abbrev S8x512x1 : Shape := ⟨3, ![8, 512, 1]⟩
abbrev S8x512x512 : Shape := ⟨3, ![8, 512, 512]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S512x128, .f32⟩
  | .hbm, ⟨8, _⟩ => ⟨S1x1, .f32⟩
  | .hbm, ⟨9, _⟩ => ⟨S_, .f32⟩
  | .local _ .vmem, ⟨0, _⟩ => ⟨S512x512, .f32⟩
  | .local _ .vmem, ⟨1, _⟩ => ⟨S512x128, .f32⟩
  | .local _ .vmem, ⟨2, _⟩ => ⟨S128, .f32⟩
  | .local _ .vmem, ⟨3, _⟩ => ⟨S512x512, .f32⟩
  | .local _ .vmem, ⟨4, _⟩ => ⟨S512x128, .f32⟩
  | .local _ .vmem, ⟨5, _⟩ => ⟨S128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x128, .f32⟩
  | .local _ .vmem, ⟨10, _⟩ => ⟨S8x128, .f32⟩
  | .local _ .vmem, ⟨11, _⟩ => ⟨S512x128, .f32⟩
  | .local _ .vmem, ⟨12, _⟩ => ⟨S8x128, .f32⟩
  | .local _ .vmem, ⟨13, _⟩ => ⟨S8x128, .f32⟩
  | .local _ .vmem, ⟨14, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S1x1_S1x1_0_0 : ∀ a, (![0, 0] : Fin 2 → Nat) a + S1x1.size a ≤ S1x1.size a
  h_S1x1 : 0 < S1x1.numel
  shapeCasts_S512x128_S512x128 : S512x128.ShapeCasts S512x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S512x128_S1x512x128 : S512x128.ShapeCasts S1x512x128
  shapeCasts_S8x128_S8x1x128 : S8x128.ShapeCasts S8x1x128
  broadcasts_S1x512x128_S8x512x128 : S1x512x128.Broadcasts S8x512x128
  broadcasts_S8x1x128_S8x512x128 : S8x1x128.Broadcasts S8x512x128
  reduces_S8x512x128_S8x512 : S8x512x128.Reduces [2] S8x512
  shapeCasts_S8x512_S8x512x1 : S8x512.ShapeCasts S8x512x1
  broadcasts_S8x512x1_S8x512x128 : S8x512x1.Broadcasts S8x512x128
  bitsLt_bf16_f32 : FTy.bits .bf16 < FTy.bits .f32
  reduces_S8x512x512_S8x512 : S8x512x512.Reduces [2] S8x512
  reduces_S8x512_S8 : S8x512.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  dot_S512x512_S512x128_S512x128_1_0_0_1_n_n_wf : DotDims.WF S512x512 S512x128 S512x128 [1] [0] [0] [1] [] []
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S512x128.size a
  hwx1_1 : ∀ i : grid1.Coords, EltTy.bits .f32 = 32 ∨ (Rect.block (s := S512x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S512x128.size a
  hwx1_3 : ∀ i : grid1.Coords, EltTy.bits .f32 = 32 ∨ (Rect.block (s := S512x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S512x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x512 : Shape := ⟨2, ![512, 512]⟩
abbrev S512x128 : Shape := ⟨2, ![512, 128]⟩
abbrev S128 : Shape := ⟨1, ![128]⟩
abbrev S1x128 : Shape := ⟨2, ![1, 128]⟩
abbrev S1x512x128 : Shape := ⟨3, ![1, 512, 128]⟩
abbrev S512x1x128 : Shape := ⟨3, ![512, 1, 128]⟩
abbrev S512x512x128 : Shape := ⟨3, ![512, 512, 128]⟩
abbrev S_ : Shape := ⟨0, ![]⟩
abbrev S512x512x1 : Shape := ⟨3, ![512, 512, 1]⟩
abbrev S512x512x512 : Shape := ⟨3, ![512, 512, 512]⟩
abbrev S134217728 : Shape := ⟨1, ![134217728]⟩

abbrev nBuf : Space → Nat
  | .hbm => 54
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S1x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S1x512x128, .f32⟩
  | .hbm, ⟨15, _⟩ => ⟨S512x1x128, .f32⟩
  | .hbm, ⟨16, _⟩ => ⟨S512x512x128, .f32⟩
  | .hbm, ⟨17, _⟩ => ⟨S512x512x128, .f32⟩
  | .hbm, ⟨18, _⟩ => ⟨S512x512x128, .f32⟩
  | .hbm, ⟨19, _⟩ => ⟨S512x512x128, .f32⟩
  | .hbm, ⟨20, _⟩ => ⟨S_, .f32⟩
  | .hbm, ⟨21, _⟩ => ⟨S512x512, .f32⟩
  | .hbm, ⟨22, _⟩ => ⟨S512x512x1, .f32⟩
  | .hbm, ⟨23, _⟩ => ⟨S512x512x1, .f32⟩
  | .hbm, ⟨24, _⟩ => ⟨S_, .f32⟩
  | .hbm, ⟨25, _⟩ => ⟨S512x512x1, .f32⟩
  | .hbm, ⟨26, _⟩ => ⟨S512x512x1, .f32⟩
  | .hbm, ⟨27, _⟩ => ⟨S512x512x128, .f32⟩
  | .hbm, ⟨28, _⟩ => ⟨S512x512x128, .f32⟩
  | .hbm, ⟨29, _⟩ => ⟨S512x512x512, .f32⟩
  | .hbm, ⟨30, _⟩ => ⟨S134217728, .f32⟩
  | .hbm, ⟨31, _⟩ => ⟨S1x512x128, .f32⟩
  | .hbm, ⟨32, _⟩ => ⟨S512x1x128, .f32⟩
  | .hbm, ⟨33, _⟩ => ⟨S512x512x128, .f32⟩
  | .hbm, ⟨34, _⟩ => ⟨S512x512x128, .f32⟩
  | .hbm, ⟨35, _⟩ => ⟨S512x512x128, .f32⟩
  | .hbm, ⟨36, _⟩ => ⟨S512x512x128, .f32⟩
  | .hbm, ⟨37, _⟩ => ⟨S_, .f32⟩
  | .hbm, ⟨38, _⟩ => ⟨S512x512, .f32⟩
  | .hbm, ⟨39, _⟩ => ⟨S512x512x1, .f32⟩
  | .hbm, ⟨40, _⟩ => ⟨S512x512x1, .f32⟩
  | .hbm, ⟨41, _⟩ => ⟨S_, .f32⟩
  | .hbm, ⟨42, _⟩ => ⟨S512x512x1, .f32⟩
  | .hbm, ⟨43, _⟩ => ⟨S512x512x1, .f32⟩
  | .hbm, ⟨44, _⟩ => ⟨S512x512x128, .f32⟩
  | .hbm, ⟨45, _⟩ => ⟨S512x512x128, .f32⟩
  | .hbm, ⟨46, _⟩ => ⟨S512x512x512, .f32⟩
  | .hbm, ⟨47, _⟩ => ⟨S134217728, .f32⟩
  | .hbm, ⟨48, _⟩ => ⟨S134217728, .f32⟩
  | .hbm, ⟨49, _⟩ => ⟨S134217728, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S512x128_S1x512x128_1_2 : S512x128.BroadcastsInDim S1x512x128 (![1, 2] : Fin 2 → Fin S1x512x128.rank)
  bcast_S512x128_S512x1x128_0_2 : S512x128.BroadcastsInDim S512x1x128 (![0, 2] : Fin 2 → Fin S512x1x128.rank)
  bcast_S1x512x128_S512x512x128_0_1_2 : S1x512x128.BroadcastsInDim S512x512x128 (![0, 1, 2] : Fin 3 → Fin S512x512x128.rank)
  bcast_S512x1x128_S512x512x128_0_1_2 : S512x1x128.BroadcastsInDim S512x512x128 (![0, 1, 2] : Fin 3 → Fin S512x512x128.rank)
  reducesTo_S512x512x128_S512x512_d2 : S512x512x128.ReducesTo [2] S512x512
  h_S_ : 0 < S_.numel
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S512x512x1_S512x512x128_0_1_2 : S512x512x1.BroadcastsInDim S512x512x128 (![0, 1, 2] : Fin 3 → Fin S512x512x128.rank)
  shapeCasts_S512x512x512_S134217728 : S512x512x512.ShapeCasts S134217728
  reducesTo_S134217728_S_d0 : S134217728.ReducesTo [0] S_
  dot_S512x512_S512x128_S512x128_1_0_0_1_n_n_wf : DotDims.WF S512x512 S512x128 S512x128 [1] [0] [0] [1] [] []
  dot_S512x512x128_S512x512x128_S512x512x512_2_2_1_1_0_0_wf : DotDims.WF S512x512x128 S512x512x128 S512x512x512 [2] [2] [1] [1] [0] [0]

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512x128_S512x512x128_S512x512x512_2_2_1_1_0_0 : DotDims S512x512x128 S512x512x128 S512x512x512 where
  lhsContracting := [2]
  rhsContracting := [2]
  lhsNonContracting := [1]
  rhsNonContracting := [1]
  lhsBatch := [0]
  rhsBatch := [0]
  wf := dot_S512x512x128_S512x512x128_S512x512x512_2_2_1_1_0_0_wf

class Facts : Prop extends Facts₀ where

variable [Facts]
-- ==== Proof.KReg0.lean ====
/- Region 0 of the kernel program: the two embeddings. One grid point; six input windows (student, W1, b1,
   teacher, W2, b2), each the whole of its array, and two output windows, each the whole of a 512x128 array.
   Everything is stated at a parameter `V`, the buffer contents when the region is entered, and at any float
   instance. The body reads the six inputs whole and overwrites each output buffer whole with a matrix product
   plus a broadcast row, so after the body each output buffer holds that value of the input blocks, whatever it
   held before. -/
import proofs.«181465_j86723979641277_2_alg».proof.Proof.Gen.Kernel.Launch
import proofs.«181465_j86723979641277_2_alg».proof.Proof.Gen.Kernel.Skeleton
import proofs.«181465_j86723979641277_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, for any proof data whose array is the entry
    contents and whose body leaves the block where it is: the window is whole, never idle, and a point where it
    is not fetched has the block index of the point before. One statement per input window. -/

theorem inBuf0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem inBuf1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem inBuf2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem inBuf3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem inBuf4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem inBuf5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in each output buffer -/

/-- The whole 512x512, 512x128 and 128 boxes: what each load reads and each store writes. -/
abbrev box512x512 : Rect S512x512 := Rect.unit (s := S512x512) ![0, 0] S512x512.size inb_S512x512_S512x512_0_0
abbrev box512x128 : Rect S512x128 := Rect.unit (s := S512x128) ![0, 0] S512x128.size inb_S512x128_S512x128_0_0
abbrev box128 : Rect S128 := Rect.unit (s := S128) ![0] S128.size inb_S128_S128_0

/-- The first output buffer after the body, from the blocks of the student matrix, the first weight matrix and
    the first bias: its one store, of the product plus the broadcast bias, over the whole box. -/
def embS (x0 : Vec F S512x512 .f32) (x1 : Vec F S512x128 .f32) (x2 : Vec F S128 .f32) : Vec F S512x128 .f32 :=
  View.canon [⟨box512x128, k0_pay1 (View.ld x0 box512x512) (View.ld x1 box512x128) (View.ld x2 box128)⟩]

/-- The second output buffer after the body, likewise from the teacher matrix, the second weight matrix and the
    second bias. -/
def embT (x3 : Vec F S512x512 .f32) (x4 : Vec F S512x128 .f32) (x5 : Vec F S128 .f32) : Vec F S512x128 .f32 :=
  View.canon [⟨box512x128, k0_pay2 (View.ld x3 box512x512) (View.ld x4 box512x128) (View.ld x5 box128)⟩]

/-- One store over the whole box covers the buffer. -/
theorem cover_box512x128 (p0 : Vec F S512x128 .f32) (y : S512x128.Idx) :
    ∃ pc ∈ ([⟨box512x128, p0⟩] : List (View.Piece (Elt F) S512x128 .f32)), y ∈ pc.1.set :=
  View.cover_of_tiled [⟨box512x128, p0⟩] S512x128.size (by rfl) y

/-! ## The body's triple -/

set_option maxHeartbeats 1000000 in
/-- The body on whole staging memrefs, the six inputs' at read contents `x0 … x5` and the two outputs' at
    anything, runs to the continuation holding the inputs' as they were and the outputs' at `embS` and `embT` of
    the inputs'. -/
theorem embed_body_run (c : Dev nD) (E : Set ℕ) (i : grid0.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S512x512 .f32) (harg4 : arg4.IsWhole)
    (arg5 : Memref sig .tc .vmem S512x128 .f32) (harg5 : arg5.IsWhole) (arg6 : Memref sig .tc .vmem S128 .f32) (harg6 : arg6.IsWhole)
    (arg7 : Memref sig .tc .vmem S512x128 .f32) (harg7 : arg7.IsWhole) (arg8 : Memref sig .tc .vmem S512x128 .f32) (harg8 : arg8.IsWhole)
    (x0 : Vec F S512x512 .f32) (x1 : Vec F S512x128 .f32) (x2 : Vec F S128 .f32)
    (x3 : Vec F S512x512 .f32) (x4 : Vec F S512x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (embS x0 x1 x2) ∗ owns (c : Thread nD τ) arg8 fullShare (embT x3 x4 x5)) -∗ K ⟨⟩))
      ⊢ wp frame (wpE (defs₀ (F := F)) Variants.none c none) E (cc0__embed_kernel i arg1 harg1 arg2 harg2 arg3 harg3 arg4 harg4 arg5 harg5 arg6 harg6 arg7 harg7 arg8 harg8) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_box512x128 _)
  iexists _; isplitr
  swap; · iexact H7
  ipureintro
  exact View.read_writes_eq_canon _ _ _ (cover_box512x128 _)

/-! ## The pipeline's proof data -/

/-- The proof data of the region on core `c`: the arrays as the region finds them; after the body each input's
    buffer at its block and each output's at the embedding of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => embS (blk0 V c 0 t) (blk0 V c 1 t) (blk0 V c 2 t)
    | ⟨7, _⟩ => embT (blk0 V c 3 t) (blk0 V c 4 t) (blk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = embS (blk0 V c 0 t) (blk0 V c 1 t) (blk0 V c 2 t) := by dsimp only [dat0]
theorem after0_7 (c : Dev nD) (t : Fin cfg0.N) : (dat0 V c).after 7 t = embT (blk0 V c 3 t) (blk0 V c 4 t) (blk0 V c 5 t) := by dsimp only [dat0]

/-! Each input's buffer holds its block at every point. -/
theorem inBuf0 (c : Dev nD) (t : Fin cfg0.N) (d) : (dat0 V c).before 0 t d = blk0 V c 0 t :=
  inBuf0_of V (dat0 V c) (A_eq0 V c 0) (after0_0 V c) t d
theorem inBuf1 (c : Dev nD) (t : Fin cfg0.N) (d) : (dat0 V c).before 1 t d = blk0 V c 1 t :=
  inBuf1_of V (dat0 V c) (A_eq0 V c 1) (after0_1 V c) t d
theorem inBuf2 (c : Dev nD) (t : Fin cfg0.N) (d) : (dat0 V c).before 2 t d = blk0 V c 2 t :=
  inBuf2_of V (dat0 V c) (A_eq0 V c 2) (after0_2 V c) t d
theorem inBuf3 (c : Dev nD) (t : Fin cfg0.N) (d) : (dat0 V c).before 3 t d = blk0 V c 3 t :=
  inBuf3_of V (dat0 V c) (A_eq0 V c 3) (after0_3 V c) t d
theorem inBuf4 (c : Dev nD) (t : Fin cfg0.N) (d) : (dat0 V c).before 4 t d = blk0 V c 4 t :=
  inBuf4_of V (dat0 V c) (A_eq0 V c 4) (after0_4 V c) t d
theorem inBuf5 (c : Dev nD) (t : Fin cfg0.N) (d) : (dat0 V c).before 5 t d = blk0 V c 5 t :=
  inBuf5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debts pass through unread. -/
theorem body_run0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [inBuf0, inBuf1, inBuf2, inBuf3, inBuf4, inBuf5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (embed_body_run c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact body_run0 V c t

end Cert.Kernel.Hand

end
-- ==== Proof.KReg1Shared.lean ====
/-
  The second kernel region: what its three kinds of point share.

  The region visits 64 points. Its five windows: the first embedding whole (window 0) and its centre rows of the point
  (window 1), the second embedding whole (window 2) and its centre rows (window 3), and the one-cell output (window 4).
  Two conditions on the point's coordinate steer the body: "the point is the first" (the cell is set to zero before
  anything else) and "the point is the last" (the cell is divided by the count after the sum is added). Over the grid
  they hold exactly at points 0 and 63. So a point is of one of three kinds: first, middle, last.
  Everything is stated at a parameter V, the buffers' contents when the region is entered.
-/
import proofs.«181465_j86723979641277_2_alg».proof.Proof.Gen.Kernel.Launch
import proofs.«181465_j86723979641277_2_alg».proof.Proof.Gen.Kernel.Skeleton
import proofs.«181465_j86723979641277_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body leaves
    the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- "The point is the first": the body's first condition, from the grid coordinate. -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val % 64 = 0 :=
  (by decide +kernel : ∀ t : Fin grid1.N, isFirst (grid1.coords t) ↔ t.val % 64 = 0)
/-- "The point is the last": the body's second condition, from the grid coordinate. -/
abbrev isLast (i : grid1.Coords) : Prop := (Scalar.cmpi .ne (Scalar.extui (Scalar.cmpi .eq (BitVec.ofNat 32 (i 0).val) 63#32)) 0#32) = 1#1
/-- It holds at point 63 only. -/
theorem isLast_iff : ∀ t : Fin cfg1.N, isLast (grid1.coords t) ↔ t.val % 64 = 63 :=
  (by decide +kernel : ∀ t : Fin grid1.N, isLast (grid1.coords t) ↔ t.val % 64 = 63)

/-- The output cell's staging buffer as a view, through which its contents are stated. -/
abbrev cellView : View sig .tc .vmem S1x1 .f32 := (Memref.whole cc1_stg4_0 : Memref sig .tc .vmem S1x1 .f32).view
/-- Each window's current staging memref at point t, spelled as the pipeline passes it, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

end Cert.Kernel.Hand

end
-- ==== Proof.KReg1RunFirst.lean ====
/-
  The second kernel's body at the FIRST point: the cell is set to zero, the tile's sum is added, and the cell is not
  divided (the point is not the last). What the cell held before is never used.
-/
import proofs.«181465_j86723979641277_2_alg».proof.Proof.KReg1Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at anything — the body
    runs to the continuation holding the inputs as they were and the cell with those pieces written. -/
noncomputable def runFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i)
    (x0 : Vec F S512x128 .f32) (x1 : Vec F S8x128 .f32) (x2 : Vec F S512x128 .f32) (x3 : Vec F S8x128 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KReg1RunMid.lean ====
/-
  The second kernel's body at a MIDDLE point (neither first nor last): the tile's sum is added to what the cell
  held, which is what the point before left.
-/
import proofs.«181465_j86723979641277_2_alg».proof.Proof.KReg1RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at its running contents — the body
    runs to the continuation holding the inputs as they were and the cell with those pieces written. -/
noncomputable def runMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KReg1RunLast.lean ====
/-
  The second kernel's body at the LAST point: the tile's sum is added to what the cell held, and the cell is then
  divided by the number of triples.
-/
import proofs.«181465_j86723979641277_2_alg».proof.Proof.KReg1RunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at its running contents — the body
    runs to the continuation holding the inputs as they were and the cell with those pieces written. -/
noncomputable def runLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.KReg1.lean ====
/-
  The second kernel region's proof data and its body obligation.

  After the body at point n the output cell's staging buffer holds: at the first point what the first-point run
  leaves; at a later point what that point's run leaves over what the point before left — the buffer is written
  back only after the last point, so between two points nothing touches it. The four input windows' buffers hold
  their blocks at every point. The first embedding's array is handed to windows 0 and 1 and the second's to windows
  2 and 3: each such array is held as two halves of its full share, one per window.
-/
import proofs.«181465_j86723979641277_2_alg».proof.Proof.KReg1RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves in the cell -/

theorem coverFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i) (x0 : Vec F S512x128 .f32) (x1 : Vec F S8x128 .f32) (x2 : Vec F S512x128 .f32) (x3 : Vec F S8x128 .f32) (y : S1x1.Idx) :
    ∃ pc ∈ (runFirst c i arg1 harg1 arg2 harg2 arg3 harg3 arg4 harg4 arg5 harg5 hc0 hc1 x0 x1 x2 x3).1, y ∈ pc.1.set :=
  View.cover_of_tiledL (runFirst c i arg1 harg1 arg2 harg2 arg3 harg3 arg4 harg4 arg5 harg5 hc0 hc1 x0 x1 x2 x3).1 S1x1.size (by sl_kernel_rfl) y
/-- What the first point leaves in the cell: its pieces read back. -/
def cellOutFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i) (x0 : Vec F S512x128 .f32) (x1 : Vec F S8x128 .f32) (x2 : Vec F S512x128 .f32) (x3 : Vec F S8x128 .f32) : Vec F S1x1 .f32 :=
  cellView.read (Elt F) (cellView.writes (Elt F) cellView.junk (runFirst c i arg1 harg1 arg2 harg2 arg3 harg3 arg4 harg4 arg5 harg5 hc0 hc1 x0 x1 x2 x3).1)

theorem coverMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i) (x0 : Vec F S512x128 .f32) (x1 : Vec F S8x128 .f32) (x2 : Vec F S512x128 .f32) (x3 : Vec F S8x128 .f32) (xo : Vec F S1x1 .f32) (y : S1x1.Idx) :
    ∃ pc ∈ (runMid c i arg1 harg1 arg2 harg2 arg3 harg3 arg4 harg4 arg5 harg5 hc0 hc1 x0 x1 x2 x3 xo).1, y ∈ pc.1.set :=
  View.cover_of_tiledL (runMid c i arg1 harg1 arg2 harg2 arg3 harg3 arg4 harg4 arg5 harg5 hc0 hc1 x0 x1 x2 x3 xo).1 S1x1.size (by sl_kernel_rfl) y
/-- What a middle point leaves in the cell, over what it held. -/
def cellOutMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i) (x0 : Vec F S512x128 .f32) (x1 : Vec F S8x128 .f32) (x2 : Vec F S512x128 .f32) (x3 : Vec F S8x128 .f32) (xo : Vec F S1x1 .f32) : Vec F S1x1 .f32 :=
  cellView.read (Elt F) (cellView.writes (Elt F) cellView.junk (runMid c i arg1 harg1 arg2 harg2 arg3 harg3 arg4 harg4 arg5 harg5 hc0 hc1 x0 x1 x2 x3 xo).1)

theorem coverLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i) (x0 : Vec F S512x128 .f32) (x1 : Vec F S8x128 .f32) (x2 : Vec F S512x128 .f32) (x3 : Vec F S8x128 .f32) (xo : Vec F S1x1 .f32) (y : S1x1.Idx) :
    ∃ pc ∈ (runLast c i arg1 harg1 arg2 harg2 arg3 harg3 arg4 harg4 arg5 harg5 hc0 hc1 x0 x1 x2 x3 xo).1, y ∈ pc.1.set :=
  View.cover_of_tiledL (runLast c i arg1 harg1 arg2 harg2 arg3 harg3 arg4 harg4 arg5 harg5 hc0 hc1 x0 x1 x2 x3 xo).1 S1x1.size (by sl_kernel_rfl) y
/-- What the last point leaves in the cell, over what it held. -/
def cellOutLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i) (x0 : Vec F S512x128 .f32) (x1 : Vec F S8x128 .f32) (x2 : Vec F S512x128 .f32) (x3 : Vec F S8x128 .f32) (xo : Vec F S1x1 .f32) : Vec F S1x1 .f32 :=
  cellView.read (Elt F) (cellView.writes (Elt F) cellView.junk (runLast c i arg1 harg1 arg2 harg2 arg3 harg3 arg4 harg4 arg5 harg5 hc0 hc1 x0 x1 x2 x3 xo).1)

/-! ## The cell after each point -/

theorem lt64 {n : ℕ} (hn : n < cfg1.N) : n < 64 := lt_of_lt_of_eq hn (show cfg1.N = 64 from N_1)

/-- The cell's staging buffer after the body at point n: the kind of the point selects the run, a later point's
    over what this gives at n − 1. -/
def cellOut (c : Dev nD) : (n : ℕ) → n < cfg1.N → Vec F S1x1 .f32
  | 0, hn => cellOutFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((isFirst_iff ⟨0, hn⟩).mpr (Nat.zero_mod _))
      (fun h => by have h' := (isLast_iff ⟨0, hn⟩).mp h; dsimp only at h'; omega) (blk1 V c 0 ⟨0, hn⟩) (blk1 V c 1 ⟨0, hn⟩) (blk1 V c 2 ⟨0, hn⟩) (blk1 V c 3 ⟨0, hn⟩)
  | n + 1, hn =>
    if h1 : (n + 1) % 64 = 63 then
      cellOutLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => by have h' := (isFirst_iff ⟨n + 1, hn⟩).mp h; have := lt64 hn; dsimp only at h'; omega)
        ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (cellOut c n (Nat.lt_of_succ_lt hn))
    else
      cellOutMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => by have h' := (isFirst_iff ⟨n + 1, hn⟩).mp h; have := lt64 hn; dsimp only at h'; omega)
        (fun h => h1 ((isLast_iff ⟨n + 1, hn⟩).mp h)) (blk1 V c 0 ⟨n + 1, hn⟩) (blk1 V c 1 ⟨n + 1, hn⟩) (blk1 V c 2 ⟨n + 1, hn⟩) (blk1 V c 3 ⟨n + 1, hn⟩) (cellOut c n (Nat.lt_of_succ_lt hn))

/-- At the first point. -/
theorem cellOut_first (c : Dev nD) (t : Fin cfg1.N) (h0 : t.val % 64 = 0) :
    cellOut V c t.val t.isLt = cellOutFirst c (grid1.coords t) (ms1_0 t) (hs1_0 t) (ms1_1 t) (hs1_1 t) (ms1_2 t) (hs1_2 t) (ms1_3 t) (hs1_3 t) (ms1_4 t) (hs1_4 t) ((isFirst_iff t).mpr h0)
      (fun h => by have h' := (isLast_iff t).mp h; omega) (blk1 V c 0 t) (blk1 V c 1 t) (blk1 V c 2 t) (blk1 V c 3 t) := by
  obtain ⟨n, hn⟩ := t
  cases n with
  | zero => exact rfl
  | succ n => exact (by exfalso; have := lt64 hn; dsimp only at h0; omega)

/-- At a middle point: over what the point before left. -/
theorem cellOut_mid (c : Dev nD) (t : Fin cfg1.N) (h0 : ¬t.val % 64 = 0) (h1 : ¬t.val % 64 = 63) :
    cellOut V c t.val t.isLt = cellOutMid c (grid1.coords t) (ms1_0 t) (hs1_0 t) (ms1_1 t) (hs1_1 t) (ms1_2 t) (hs1_2 t) (ms1_3 t) (hs1_3 t) (ms1_4 t) (hs1_4 t) (fun h => h0 ((isFirst_iff t).mp h))
      (fun h => h1 ((isLast_iff t).mp h)) (blk1 V c 0 t) (blk1 V c 1 t) (blk1 V c 2 t) (blk1 V c 3 t) (cellOut V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- At the last point: over what the point before left. -/
theorem cellOut_last (c : Dev nD) (t : Fin cfg1.N) (h1 : t.val % 64 = 63) :
    cellOut V c t.val t.isLt = cellOutLast c (grid1.coords t) (ms1_0 t) (hs1_0 t) (ms1_1 t) (hs1_1 t) (ms1_2 t) (hs1_2 t) (ms1_3 t) (hs1_3 t) (ms1_4 t) (hs1_4 t) (fun h => by have h' := (isFirst_iff t).mp h; omega)
      ((isLast_iff t).mpr h1) (blk1 V c 0 t) (blk1 V c 1 t) (blk1 V c 2 t) (blk1 V c 3 t) (cellOut V c (t.val - 1) (Nat.lt_of_le_of_lt (Nat.sub_le _ _) t.isLt)) := by
  obtain ⟨n, hn⟩ := t
  cases n with
  | zero => exact (by exfalso; dsimp only at h1; omega)
  | succ n => exact (dif_pos h1).trans rfl

/-! ## The proof data -/

/-- The second region's proof data on core c: the arrays as the region finds them; after the body at point t each
    input's buffer at its block and the cell's at `cellOut`; the scoped rest and the generator register untouched;
    nothing owed; an array handed to two windows held as the two halves of its full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => cellOut V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = cellOut V c t.val t.isLt := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-- At a point that is not the first the cell's staging buffer holds what the body left at the point before: the
    buffer is not written back between (only after the last point), the window is live and uncut. -/
theorem before1_4_later (c : Dev nD) (t : Fin cfg1.N) (h0 : ¬t.val % 64 = 0) (d) :
    (dat1 V c).before 4 t d = cellOut V c (t.val - 1) (Nat.lt_of_le_of_lt (Nat.sub_le _ _) t.isLt) := by
  have hN : t.val < 64 := lt64 t.isLt
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed forms of the two conditions say which
    kind the point is of; at a later point the cell holds what the point before left; so that kind's run applies.
    The invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt64 t.isLt
  by_cases h0 : t.val % 64 = 0
  · rw [cellOut_first V c t h0]
    unfold cellOutFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (fun h => by have h' := (isLast_iff t).mp h; omega) (blk1 V c 0 t) (blk1 V c 1 t) (blk1 V c 2 t) (blk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · by_cases h1 : t.val % 64 = 63
    · rw [cellOut_last V c t h1]
      simp only [before1_4_later V c t h0]
      unfold cellOutLast
      iintro ⟨HΦ, Ho, ⟨%d0, H0⟩, ⟨%d1, H1⟩, ⟨%d2, H2⟩, ⟨%d3, H3⟩, ⟨%d4, H4⟩⟩
      iapply ((runLast c (grid1.coords t) _ _ _ _ _ _ _ _ _ _ (fun h => h0 ((isFirst_iff t).mp h)) ((isLast_iff t).mpr h1) (blk1 V c 0 t) (blk1 V c 1 t) (blk1 V c 2 t) (blk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [cellOut_mid V c t h0 h1]
      simp only [before1_4_later V c t h0]
      unfold cellOutMid
      iintro ⟨HΦ, Ho, ⟨%d0, H0⟩, ⟨%d1, H1⟩, ⟨%d2, H2⟩, ⟨%d3, H3⟩, ⟨%d4, H4⟩⟩
      iapply ((runMid c (grid1.coords t) _ _ _ _ _ _ _ _ _ _ (fun h => h0 ((isFirst_iff t).mp h)) (fun h => h1 ((isLast_iff t).mp h)) (blk1 V c 0 t) (blk1 V c 1 t) (blk1 V c 2 t) (blk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg1Arrays.lean ====
/-
  The second region's arrays, when two windows are handed the same array.

  The first embedding's array stands behind windows 0 and 1 and the second's behind windows 2 and 3; the output cell's
  array behind window 4 alone. The core holds each of the three buffers whole at the full share; the region's proof
  data hold each input window's array at half of it, the left half for the whole-array window and the right half for
  the centre-rows window. A full share is its two halves, so the three buffers are exactly the five windows' arrays,
  in both directions, at any contents that agree window by window.
-/
import proofs.«181465_j86723979641277_2_alg».proof.Proof.KReg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem share1_0 (c : Dev nD) : (dat1 V c).share 0 = fullShare.left := rfl
theorem share1_1 (c : Dev nD) : (dat1 V c).share 1 = fullShare.right := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl

/-- The buffers behind the second region's windows: the two embeddings' arrays and the cell's. -/
theorem arrRefs1 : Finset.univ.image (Pipeline.arrRef spec1) = ({main_v0_0, main_v0_1, main_v1} : Finset (Ref sig .tc)) := by decide

/-- The proof data's arrays, window by window, as whole buffers at their shares. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc (Pipeline.arrRef spec1 0)) ↦{fullShare.left} Fw 0)
        ∗ (((c : Thread nD τ).loc (Pipeline.arrRef spec1 1)) ↦{fullShare.right} Fw 1)
        ∗ (((c : Thread nD τ).loc (Pipeline.arrRef spec1 2)) ↦{fullShare.left} Fw 2)
        ∗ (((c : Thread nD τ).loc (Pipeline.arrRef spec1 3)) ↦{fullShare.right} Fw 3)
        ∗ (((c : Thread nD τ).loc (Pipeline.arrRef spec1 4)) ↦{fullShare} Fw 4)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, share1_0, share1_1, share1_2, share1_3, share1_4]

/-- The three buffers at the full share, at contents V'. -/
theorem arrBufs1_eq (c : Dev nD) (V' : (b : Ref sig .tc) → Buf (Elt F) ((c : Thread nD τ).loc b)) :
    (Pipeline.arrBufs spec1 c V' : sProp 𝕄)
      = iprop((((c : Thread nD τ).loc main_v0_0) ↦{fullShare} V' main_v0_0)
        ∗ (((c : Thread nD τ).loc main_v0_1) ↦{fullShare} V' main_v0_1)
        ∗ (((c : Thread nD τ).loc main_v1) ↦{fullShare} V' main_v1)) := by
  unfold Pipeline.arrBufs
  rw [arrRefs1, bigSep_insert (by decide), bigSep_insert (by decide), BI.bigSep_singleton]
  rfl

/-- ENTRY: the three buffers whole are the five windows' arrays at their shares. -/
theorem arrays1_of_bufs (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs spec1 c V' : sProp 𝕄) ⊢ (dat1 V c).arrays Fw := by
  rw [arrays1_eq, arrBufs1_eq, hF 0, hF 1, hF 2, hF 3, hF 4]
  iintro ⟨Hs, Ht, Ho⟩
  ihave Hs := (pointsTo_share (PosShare.mem_left_op_right fullShare)).1 $$ Hs
  icases Hs with ⟨Hs1, Hs2⟩
  ihave Ht := (pointsTo_share (PosShare.mem_left_op_right fullShare)).1 $$ Ht
  icases Ht with ⟨Ht1, Ht2⟩
  isplitl [Hs1]; · iexact Hs1
  isplitl [Hs2]; · iexact Hs2
  isplitl [Ht1]; · iexact Ht1
  isplitl [Ht2]; · iexact Ht2
  iexact Ho

/-- EXIT: the five windows' arrays at their shares are the three buffers whole. -/
theorem bufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    ((dat1 V c).arrays Fw : sProp 𝕄) ⊢ Pipeline.arrBufs spec1 c V' := by
  rw [arrays1_eq, arrBufs1_eq, hF 0, hF 1, hF 2, hF 3, hF 4]
  iintro ⟨Hs1, Hs2, Ht1, Ht2, Ho⟩
  isplitl [Hs1 Hs2]
  · iapply (pointsTo_share (PosShare.mem_left_op_right fullShare)).2
    isplitl [Hs1] <;> iassumption
  isplitl [Ht1 Ht2]
  · iapply (pointsTo_share (PosShare.mem_left_op_right fullShare)).2
    isplitl [Ht1] <;> iassumption
  iexact Ho

end Cert.Kernel.Hand

end
-- ==== Proof.KRunAll.lean ====
/-
  The run of the whole program: the first region, the second region, then the host's one reshape.

  Between two items core c holds every unscoped buffer whole at a valuation: the launch contents; after the first
  region those with the two embeddings' arrays at what the region wrote back; after the second region those with the
  cell's array at what that region wrote back; after the reshape those with the result buffer written. Each region's
  arrays are taken out of the unscoped buffers at its entry and put back at its exit; the second region's two shared
  arrays are divided among their windows at entry and made whole again at exit. The generator register and the
  core's debt (none) ride along. Every weakly fair execution terminates and every final memory has every unscoped
  buffer at the last valuation; the argument arrays walk back through the valuations to their launch contents.
-/
import proofs.«181465_j86723979641277_2_alg».proof.Proof.KReg0
import proofs.«181465_j86723979641277_2_alg».proof.Proof.KReg1Arrays
import proofs.«181465_j86723979641277_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: the cell's array at what the region wrote back, every other buffer as entered. -/
def W2 (c : Dev nD) : Valuation τ sig (Elt F) :=
  Function.update (W1 m ρ c) (Proc.devRef .tc main_v1) ((dat1 (V1 m ρ) c).arrAt 4 cfg1.N)
theorem W2_cell (c : Dev nD) : W2 m ρ c (Proc.devRef .tc main_v1) = (dat1 (V1 m ρ) c).arrAt 4 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the host's reshape. -/
abbrev W3 : Dev nD → Valuation τ sig (Elt F) := fun c => StableHlo.after hostOps2 (W2 m ρ c)

/-- At the second region's exit each window's array holds what the exit valuation has there: an input's array as
    entered, the cell's at what the region wrote back. -/
theorem hF1 (c : Dev nD) (w : Fin cfg1.W) : (dat1 (V1 m ρ) c).arrAt w cfg1.N = V2 m ρ c (Pipeline.arrRef spec1 w) := by
  match w with
  | ⟨0, _⟩ => exact (((dat1 (V1 m ρ) c).arrAt_in 0 rfl _).trans (A_eq1 (V1 m ρ) c 0)).trans (W2_of_ne m ρ c _ (by decide)).symm
  | ⟨1, _⟩ => exact (((dat1 (V1 m ρ) c).arrAt_in 1 rfl _).trans (A_eq1 (V1 m ρ) c 1)).trans (W2_of_ne m ρ c _ (by decide)).symm
  | ⟨2, _⟩ => exact (((dat1 (V1 m ρ) c).arrAt_in 2 rfl _).trans (A_eq1 (V1 m ρ) c 2)).trans (W2_of_ne m ρ c _ (by decide)).symm
  | ⟨3, _⟩ => exact (((dat1 (V1 m ρ) c).arrAt_in 3 rfl _).trans (A_eq1 (V1 m ρ) c 3)).trans (W2_of_ne m ρ c _ (by decide)).symm
  | ⟨4, _⟩ => exact (W2_cell m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨4, Finset.mem_univ _, e.symm⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps2 _ hostOps2_writes (by decide)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_writes_sub hostOps2 _ hostOps2_writes (by decide)
    _ = W1 m ρ c (Proc.devRef .tc main_arg4) := W2_of_ne m ρ c main_arg4 (by decide)
    _ = W0 m ρ c (Proc.devRef .tc main_arg4) := (W1_arr m ρ c 4).trans (((dat0 (V0 m ρ) c).arrAt_in 4 rfl _).trans (A_eq0 (V0 m ρ) c 4))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps2 _ hostOps2_writes (by decide)
    _ = W1 m ρ c (Proc.devRef .tc main_arg5) := W2_of_ne m ρ c main_arg5 (by decide)
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V1 m ρ) c
abbrev 𝒱₀ : Variants := Variants.none
abbrev Lh : GSem nD τ sig → Finset Unit := fun _ => ∅
abbrev lvh : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last valuation, the register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at W1. -/
def reg0 : Pipeline.RegionSeg (pcfgs (F := F)) admH (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ Lh lvh 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W1, left at W2. Its two shared arrays are divided among
    their windows at entry and made whole again at exit. -/
def reg1 : Pipeline.RegionSeg (pcfgs (F := F)) admH (pdats m ρ) () defs₀ 𝒱₀ Lh lvh 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ Lh lvh 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    show iprop(iprop(StableHlo.held (c : Thread nD τ) (Pipeline.ucRefs τ sig) (W1 m ρ c) ∗ R c) ∗ emp ∗ levAts Lh lvh)
      ⊢ |={Set.univ}=> iprop((dat1 (V1 m ρ) c).arrays ((dat1 (V1 m ρ) c).arrAt · 0) ∗ Pipeline.prefHeld (pcfgs (F := F) 1).pre c (fun _ => fullShare) (admH 1).1
        ∗ (dat1 (V1 m ρ) c).owesAt () 0 ∗ (∃ r, prngReg c r) ∗ Pipeline.unscopedRest spec1 c (V1 m ρ c))
    have hsplit : (unscopedBufs c (V1 m ρ c) : sProp 𝕄) ⊢ iprop(Pipeline.arrBufs spec1 c (V1 m ρ c) ∗ Pipeline.unscopedRest spec1 c (V1 m ρ c)) := by
      rw [Pipeline.unscopedBufs_split₀ cfgs 1 winFacts₀1.arr_unscoped c (V1 m ρ c)]; exact .rfl
    rw [Pipeline.unscopedBufs_held] at hsplit
    iintro ⟨⟨Hub, Hp, HO⟩, -, -⟩
    ihave H := hsplit $$ Hub
    icases H with ⟨Ha, Hrest⟩
    ihave Ha := (arrays1_of_bufs (V1 m ρ) c (V1 m ρ c) ((dat1 (V1 m ρ) c).arrAt · 0) (fun w => A_eq1 (V1 m ρ) c w)) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (V1 m ρ) c).arrays ((dat1 (V1 m ρ) c).arrAt · cfg1.N) ∗ (dat1 (V1 m ρ) c).owesAt () (Fin.last cfg1.N)
        ∗ (∃ r, prngReg c r) ∗ Pipeline.unscopedRest spec1 c (V1 m ρ c))
      ⊢ |={Set.univ}=> iprop(StableHlo.held (c : Thread nD τ) (Pipeline.ucRefs τ sig) (W2 m ρ c) ∗ R c)
    have hjoin : iprop(Pipeline.arrBufs spec1 c (V2 m ρ c) ∗ Pipeline.unscopedRest spec1 c (V2 m ρ c)) ⊢ (unscopedBufs c (V2 m ρ c) : sProp 𝕄) := by
      rw [Pipeline.unscopedBufs_split₀ cfgs 1 winFacts₀1.arr_unscoped c (V2 m ρ c)]; exact .rfl
    rw [Pipeline.unscopedBufs_held] at hjoin
    have hrestEq : (Pipeline.unscopedRest (Ix := Unit) (Name := ℕ) (U := UR sig nD τ) (Lvl := ℕ) spec1 c (V1 m ρ c) : sProp 𝕄)
        ⊢ Pipeline.unscopedRest spec1 c (V2 m ρ c) := by
      unfold Pipeline.unscopedRest
      exact Entails.of_eq (bigSep_congr fun b hb => by rw [hrest1 m ρ c b (Finset.mem_sdiff.mp hb).2])
    iintro ⟨Ha, HO, HY, Hrest⟩
    ihave Ha := (bufs_of_arrays1 (V1 m ρ) c (V2 m ρ c) ((dat1 (V1 m ρ) c).arrAt · cfg1.N) (hF1 m ρ c)) $$ Ha
    ihave Hrest := hrestEq $$ Hrest
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host's reshape as a segment over the unscoped buffers from W2. -/
abbrev tailSeg : Pipeline.HostSeg (Name := ℕ) (U := UR sig nD τ) (pcfgs (F := F)) defs₀ 𝒱₀ Lh lvh :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

/-! ## The program as segments, and the launch -/

abbrev segsH : List (Pipeline.Seg (pcfgs (F := F)) admH (pdats m ρ) () defs₀ 𝒱₀ Lh lvh) :=
  [ .region (reg0 m ρ), .region (reg1 m ρ), .host (tailSeg m ρ) ]
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱₀ Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps2 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.Kernel.Hand

end
-- ==== Proof.Reg0.lean ====
/- Region 0 of the kernel program: the two embeddings. One grid point; six input windows (student, W1, b1,
   teacher, W2, b2), each the whole of its array, and two output windows, each the whole of a 512x128 array.
   Everything is stated at a parameter `V`, the buffer contents when the region is entered, and at any float
   instance. The body reads the six inputs whole and overwrites each output buffer whole with a matrix product
   plus a broadcast row, so after the body each output buffer holds that value of the input blocks, whatever it
   held before. -/
import proofs.«181465_j86723979641277_2_alg».proof.Proof.Gen.KernelIdeal.Launch
import proofs.«181465_j86723979641277_2_alg».proof.Proof.Gen.KernelIdeal.Skeleton
import proofs.«181465_j86723979641277_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, for any proof data whose array is the entry
    contents and whose body leaves the block where it is: the window is whole, never idle, and a point where it
    is not fetched has the block index of the point before. One statement per input window. -/

theorem inBuf0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

theorem inBuf1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem inBuf2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

theorem inBuf3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

theorem inBuf4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

theorem inBuf5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## What the body leaves in each output buffer -/

/-- The whole 512x512, 512x128 and 128 boxes: what each load reads and each store writes. -/
abbrev box512x512 : Rect S512x512 := Rect.unit (s := S512x512) ![0, 0] S512x512.size inb_S512x512_S512x512_0_0
abbrev box512x128 : Rect S512x128 := Rect.unit (s := S512x128) ![0, 0] S512x128.size inb_S512x128_S512x128_0_0
abbrev box128 : Rect S128 := Rect.unit (s := S128) ![0] S128.size inb_S128_S128_0

/-- The first output buffer after the body, from the blocks of the student matrix, the first weight matrix and
    the first bias: its one store, of the product plus the broadcast bias, over the whole box. -/
def embS (x0 : Vec F S512x512 .f32) (x1 : Vec F S512x128 .f32) (x2 : Vec F S128 .f32) : Vec F S512x128 .f32 :=
  View.canon [⟨box512x128, k0_pay1 (View.ld x0 box512x512) (View.ld x1 box512x128) (View.ld x2 box128)⟩]

/-- The second output buffer after the body, likewise from the teacher matrix, the second weight matrix and the
    second bias. -/
def embT (x3 : Vec F S512x512 .f32) (x4 : Vec F S512x128 .f32) (x5 : Vec F S128 .f32) : Vec F S512x128 .f32 :=
  View.canon [⟨box512x128, k0_pay2 (View.ld x3 box512x512) (View.ld x4 box512x128) (View.ld x5 box128)⟩]

/-- One store over the whole box covers the buffer. -/
theorem cover_box512x128 (p0 : Vec F S512x128 .f32) (y : S512x128.Idx) :
    ∃ pc ∈ ([⟨box512x128, p0⟩] : List (View.Piece (Elt F) S512x128 .f32)), y ∈ pc.1.set :=
  View.cover_of_tiled [⟨box512x128, p0⟩] S512x128.size (by rfl) y

/-! ## The body's triple -/

set_option maxHeartbeats 1000000 in
/-- The body on whole staging memrefs, the six inputs' at read contents `x0 … x5` and the two outputs' at
    anything, runs to the continuation holding the inputs' as they were and the outputs' at `embS` and `embT` of
    the inputs'. -/
theorem embed_body_run (c : Dev nD) (E : Set ℕ) (i : grid0.Coords)
    (arg1 : Memref sig .tc .vmem S512x512 .f32) (harg1 : arg1.IsWhole) (arg2 : Memref sig .tc .vmem S512x128 .f32) (harg2 : arg2.IsWhole)
    (arg3 : Memref sig .tc .vmem S128 .f32) (harg3 : arg3.IsWhole) (arg4 : Memref sig .tc .vmem S512x512 .f32) (harg4 : arg4.IsWhole)
    (arg5 : Memref sig .tc .vmem S512x128 .f32) (harg5 : arg5.IsWhole) (arg6 : Memref sig .tc .vmem S128 .f32) (harg6 : arg6.IsWhole)
    (arg7 : Memref sig .tc .vmem S512x128 .f32) (harg7 : arg7.IsWhole) (arg8 : Memref sig .tc .vmem S512x128 .f32) (harg8 : arg8.IsWhole)
    (x0 : Vec F S512x512 .f32) (x1 : Vec F S512x128 .f32) (x2 : Vec F S128 .f32)
    (x3 : Vec F S512x512 .f32) (x4 : Vec F S512x128 .f32) (x5 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (embS x0 x1 x2) ∗ owns (c : Thread nD τ) arg8 fullShare (embT x3 x4 x5)) -∗ K ⟨⟩))
      ⊢ wp frame (wpE (defs₀ (F := F)) Variants.none c none) E (cc0__embed_kernel i arg1 harg1 arg2 harg2 arg3 harg3 arg4 harg4 arg5 harg5 arg6 harg6 arg7 harg7 arg8 harg8) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_box512x128 _)
  iexists _; isplitr
  swap; · iexact H7
  ipureintro
  exact View.read_writes_eq_canon _ _ _ (cover_box512x128 _)

/-! ## The pipeline's proof data -/

/-- The proof data of the region on core `c`: the arrays as the region finds them; after the body each input's
    buffer at its block and each output's at the embedding of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => embS (blk0 V c 0 t) (blk0 V c 1 t) (blk0 V c 2 t)
    | ⟨7, _⟩ => embT (blk0 V c 3 t) (blk0 V c 4 t) (blk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = embS (blk0 V c 0 t) (blk0 V c 1 t) (blk0 V c 2 t) := by dsimp only [dat0]
theorem after0_7 (c : Dev nD) (t : Fin cfg0.N) : (dat0 V c).after 7 t = embT (blk0 V c 3 t) (blk0 V c 4 t) (blk0 V c 5 t) := by dsimp only [dat0]

/-! Each input's buffer holds its block at every point. -/
theorem inBuf0 (c : Dev nD) (t : Fin cfg0.N) (d) : (dat0 V c).before 0 t d = blk0 V c 0 t :=
  inBuf0_of V (dat0 V c) (A_eq0 V c 0) (after0_0 V c) t d
theorem inBuf1 (c : Dev nD) (t : Fin cfg0.N) (d) : (dat0 V c).before 1 t d = blk0 V c 1 t :=
  inBuf1_of V (dat0 V c) (A_eq0 V c 1) (after0_1 V c) t d
theorem inBuf2 (c : Dev nD) (t : Fin cfg0.N) (d) : (dat0 V c).before 2 t d = blk0 V c 2 t :=
  inBuf2_of V (dat0 V c) (A_eq0 V c 2) (after0_2 V c) t d
theorem inBuf3 (c : Dev nD) (t : Fin cfg0.N) (d) : (dat0 V c).before 3 t d = blk0 V c 3 t :=
  inBuf3_of V (dat0 V c) (A_eq0 V c 3) (after0_3 V c) t d
theorem inBuf4 (c : Dev nD) (t : Fin cfg0.N) (d) : (dat0 V c).before 4 t d = blk0 V c 4 t :=
  inBuf4_of V (dat0 V c) (A_eq0 V c 4) (after0_4 V c) t d
theorem inBuf5 (c : Dev nD) (t : Fin cfg0.N) (d) : (dat0 V c).before 5 t d = blk0 V c 5 t :=
  inBuf5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's debts pass through unread. -/
theorem body_run0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [inBuf0, inBuf1, inBuf2, inBuf3, inBuf4, inBuf5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (embed_body_run c Set.univ _ _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact body_run0 V c t

end Cert.KernelIdeal.Hand

end
-- ==== Proof.Reg1Shared.lean ====
/-
  The second kernel region: what its three kinds of point share.

  The region visits 64 points. Its five windows: the first embedding whole (window 0) and its centre rows of the point
  (window 1), the second embedding whole (window 2) and its centre rows (window 3), and the one-cell output (window 4).
  Two conditions on the point's coordinate steer the body: "the point is the first" (the cell is set to zero before
  anything else) and "the point is the last" (the cell is divided by the count after the sum is added). Over the grid
  they hold exactly at points 0 and 63. So a point is of one of three kinds: first, middle, last.
  Everything is stated at a parameter V, the buffers' contents when the region is entered.
-/
import proofs.«181465_j86723979641277_2_alg».proof.Proof.Gen.KernelIdeal.Launch
import proofs.«181465_j86723979641277_2_alg».proof.Proof.Gen.KernelIdeal.Skeleton
import proofs.«181465_j86723979641277_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body leaves
    the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- "The point is the first": the body's first condition, from the grid coordinate. -/
abbrev isFirst (i : grid1.Coords) : Prop := (Scalar.cmpi .ne (Scalar.extui (Scalar.cmpi .eq (BitVec.ofNat 32 (i 0).val) 0#32)) 0#32) = 1#1
/-- It holds at point 0 only. -/
theorem isFirst_iff : ∀ t : Fin cfg1.N, isFirst (grid1.coords t) ↔ t.val % 64 = 0 :=
  (by decide +kernel : ∀ t : Fin grid1.N, isFirst (grid1.coords t) ↔ t.val % 64 = 0)
/-- "The point is the last": the body's second condition, from the grid coordinate. -/
abbrev isLast (i : grid1.Coords) : Prop := (Scalar.cmpi .ne (Scalar.extui (Scalar.cmpi .eq (BitVec.ofNat 32 (i 0).val) 63#32)) 0#32) = 1#1
/-- It holds at point 63 only. -/
theorem isLast_iff : ∀ t : Fin cfg1.N, isLast (grid1.coords t) ↔ t.val % 64 = 63 :=
  (by decide +kernel : ∀ t : Fin grid1.N, isLast (grid1.coords t) ↔ t.val % 64 = 63)

/-- The output cell's staging buffer as a view, through which its contents are stated. -/
abbrev cellView : View sig .tc .vmem S1x1 .f32 := (Memref.whole cc1_stg4_0 : Memref sig .tc .vmem S1x1 .f32).view
/-- Each window's current staging memref at point t, spelled as the pipeline passes it, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

end Cert.KernelIdeal.Hand

end
-- ==== Proof.Reg1RunFirst.lean ====
/-
  The second kernel's body at the FIRST point: the cell is set to zero, the tile's sum is added, and the cell is not
  divided (the point is not the last). What the cell held before is never used.
-/
import proofs.«181465_j86723979641277_2_alg».proof.Proof.Reg1Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at anything — the body
    runs to the continuation holding the inputs as they were and the cell with those pieces written. -/
noncomputable def runFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i)
    (x0 : Vec F S512x128 .f32) (x1 : Vec F S8x128 .f32) (x2 : Vec F S512x128 .f32) (x3 : Vec F S8x128 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.Reg1RunMid.lean ====
/-
  The second kernel's body at a MIDDLE point (neither first nor last): the tile's sum is added to what the cell
  held, which is what the point before left.
-/
import proofs.«181465_j86723979641277_2_alg».proof.Proof.Reg1RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at its running contents — the body
    runs to the continuation holding the inputs as they were and the cell with those pieces written. -/
noncomputable def runMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.Reg1RunLast.lean ====
/-
  The second kernel's body at the LAST point: the tile's sum is added to what the cell held, and the cell is then
  divided by the number of triples.
-/
import proofs.«181465_j86723979641277_2_alg».proof.Proof.Reg1RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the run's proof term is large
set_option maxHeartbeats 2000000 in
/-- The pieces the body's stores leave in the output cell's staging memref at such a point (last first), with the
    proof that on whole staging memrefs — the four inputs at their contents, the cell at its running contents — the body
    runs to the continuation holding the inputs as they were and the cell with those pieces written. -/
noncomputable def runLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc1__angle_loss_kernel i arg1 harg1 arg2 harg2 arg3 harg3 arg4 harg4 arg5 harg5) K } := by
  refine ⟨?_, fun E K => ?run⟩
  case run =>
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.Reg1.lean ====
/-
  The second kernel region's proof data and its body obligation.

  After the body at point n the output cell's staging buffer holds: at the first point what the first-point run
  leaves; at a later point what that point's run leaves over what the point before left — the buffer is written
  back only after the last point, so between two points nothing touches it. The four input windows' buffers hold
  their blocks at every point. The first embedding's array is handed to windows 0 and 1 and the second's to windows
  2 and 3: each such array is held as two halves of its full share, one per window.
-/
import proofs.«181465_j86723979641277_2_alg».proof.Proof.Reg1RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves in the cell -/

theorem coverFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i) (x0 : Vec F S512x128 .f32) (x1 : Vec F S8x128 .f32) (x2 : Vec F S512x128 .f32) (x3 : Vec F S8x128 .f32) (y : S1x1.Idx) :
    ∃ pc ∈ (runFirst c i arg1 harg1 arg2 harg2 arg3 harg3 arg4 harg4 arg5 harg5 hc0 hc1 x0 x1 x2 x3).1, y ∈ pc.1.set :=
  View.cover_of_tiledL (runFirst c i arg1 harg1 arg2 harg2 arg3 harg3 arg4 harg4 arg5 harg5 hc0 hc1 x0 x1 x2 x3).1 S1x1.size (by sl_kernel_rfl) y
/-- What the first point leaves in the cell: its pieces read back. -/
def cellOutFirst (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i) (x0 : Vec F S512x128 .f32) (x1 : Vec F S8x128 .f32) (x2 : Vec F S512x128 .f32) (x3 : Vec F S8x128 .f32) : Vec F S1x1 .f32 :=
  cellView.read (Elt F) (cellView.writes (Elt F) cellView.junk (runFirst c i arg1 harg1 arg2 harg2 arg3 harg3 arg4 harg4 arg5 harg5 hc0 hc1 x0 x1 x2 x3).1)

theorem coverMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i) (x0 : Vec F S512x128 .f32) (x1 : Vec F S8x128 .f32) (x2 : Vec F S512x128 .f32) (x3 : Vec F S8x128 .f32) (xo : Vec F S1x1 .f32) (y : S1x1.Idx) :
    ∃ pc ∈ (runMid c i arg1 harg1 arg2 harg2 arg3 harg3 arg4 harg4 arg5 harg5 hc0 hc1 x0 x1 x2 x3 xo).1, y ∈ pc.1.set :=
  View.cover_of_tiledL (runMid c i arg1 harg1 arg2 harg2 arg3 harg3 arg4 harg4 arg5 harg5 hc0 hc1 x0 x1 x2 x3 xo).1 S1x1.size (by sl_kernel_rfl) y
/-- What a middle point leaves in the cell, over what it held. -/
def cellOutMid (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i) (x0 : Vec F S512x128 .f32) (x1 : Vec F S8x128 .f32) (x2 : Vec F S512x128 .f32) (x3 : Vec F S8x128 .f32) (xo : Vec F S1x1 .f32) : Vec F S1x1 .f32 :=
  cellView.read (Elt F) (cellView.writes (Elt F) cellView.junk (runMid c i arg1 harg1 arg2 harg2 arg3 harg3 arg4 harg4 arg5 harg5 hc0 hc1 x0 x1 x2 x3 xo).1)

theorem coverLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i) (x0 : Vec F S512x128 .f32) (x1 : Vec F S8x128 .f32) (x2 : Vec F S512x128 .f32) (x3 : Vec F S8x128 .f32) (xo : Vec F S1x1 .f32) (y : S1x1.Idx) :
    ∃ pc ∈ (runLast c i arg1 harg1 arg2 harg2 arg3 harg3 arg4 harg4 arg5 harg5 hc0 hc1 x0 x1 x2 x3 xo).1, y ∈ pc.1.set :=
  View.cover_of_tiledL (runLast c i arg1 harg1 arg2 harg2 arg3 harg3 arg4 harg4 arg5 harg5 hc0 hc1 x0 x1 x2 x3 xo).1 S1x1.size (by sl_kernel_rfl) y
/-- What the last point leaves in the cell, over what it held. -/
def cellOutLast (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i) (x0 : Vec F S512x128 .f32) (x1 : Vec F S8x128 .f32) (x2 : Vec F S512x128 .f32) (x3 : Vec F S8x128 .f32) (xo : Vec F S1x1 .f32) : Vec F S1x1 .f32 :=
  cellView.read (Elt F) (cellView.writes (Elt F) cellView.junk (runLast c i arg1 harg1 arg2 harg2 arg3 harg3 arg4 harg4 arg5 harg5 hc0 hc1 x0 x1 x2 x3 xo).1)

/-! ## The cell after each point -/

theorem lt64 {n : ℕ} (hn : n < cfg1.N) : n < 64 := lt_of_lt_of_eq hn (show cfg1.N = 64 from N_1)

/-- The cell's staging buffer after the body at point n: the kind of the point selects the run, a later point's
    over what this gives at n − 1. -/
def cellOut (c : Dev nD) : (n : ℕ) → n < cfg1.N → Vec F S1x1 .f32
  | 0, hn => cellOutFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((isFirst_iff ⟨0, hn⟩).mpr (Nat.zero_mod _))
      (fun h => by have h' := (isLast_iff ⟨0, hn⟩).mp h; dsimp only at h'; omega) (blk1 V c 0 ⟨0, hn⟩) (blk1 V c 1 ⟨0, hn⟩) (blk1 V c 2 ⟨0, hn⟩) (blk1 V c 3 ⟨0, hn⟩)
  | n + 1, hn =>
    if h1 : (n + 1) % 64 = 63 then
      cellOutLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => by have h' := (isFirst_iff ⟨n + 1, hn⟩).mp h; have := lt64 hn; dsimp only at h'; omega)
        ((isLast_iff ⟨n + 1, hn⟩).mpr h1) (blk1 V c 0 ⟨n + 1, hn⟩) (blk1 V c 1 ⟨n + 1, hn⟩) (blk1 V c 2 ⟨n + 1, hn⟩) (blk1 V c 3 ⟨n + 1, hn⟩) (cellOut c n (Nat.lt_of_succ_lt hn))
    else
      cellOutMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => by have h' := (isFirst_iff ⟨n + 1, hn⟩).mp h; have := lt64 hn; dsimp only at h'; omega)
        (fun h => h1 ((isLast_iff ⟨n + 1, hn⟩).mp h)) (blk1 V c 0 ⟨n + 1, hn⟩) (blk1 V c 1 ⟨n + 1, hn⟩) (blk1 V c 2 ⟨n + 1, hn⟩) (blk1 V c 3 ⟨n + 1, hn⟩) (cellOut c n (Nat.lt_of_succ_lt hn))

/-- At the first point. -/
theorem cellOut_first (c : Dev nD) (t : Fin cfg1.N) (h0 : t.val % 64 = 0) :
    cellOut V c t.val t.isLt = cellOutFirst c (grid1.coords t) (ms1_0 t) (hs1_0 t) (ms1_1 t) (hs1_1 t) (ms1_2 t) (hs1_2 t) (ms1_3 t) (hs1_3 t) (ms1_4 t) (hs1_4 t) ((isFirst_iff t).mpr h0)
      (fun h => by have h' := (isLast_iff t).mp h; omega) (blk1 V c 0 t) (blk1 V c 1 t) (blk1 V c 2 t) (blk1 V c 3 t) := by
  obtain ⟨n, hn⟩ := t
  cases n with
  | zero => exact rfl
  | succ n => exact (by exfalso; have := lt64 hn; dsimp only at h0; omega)

/-- At a middle point: over what the point before left. -/
theorem cellOut_mid (c : Dev nD) (t : Fin cfg1.N) (h0 : ¬t.val % 64 = 0) (h1 : ¬t.val % 64 = 63) :
    cellOut V c t.val t.isLt = cellOutMid c (grid1.coords t) (ms1_0 t) (hs1_0 t) (ms1_1 t) (hs1_1 t) (ms1_2 t) (hs1_2 t) (ms1_3 t) (hs1_3 t) (ms1_4 t) (hs1_4 t) (fun h => h0 ((isFirst_iff t).mp h))
      (fun h => h1 ((isLast_iff t).mp h)) (blk1 V c 0 t) (blk1 V c 1 t) (blk1 V c 2 t) (blk1 V c 3 t) (cellOut V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- At the last point: over what the point before left. -/
theorem cellOut_last (c : Dev nD) (t : Fin cfg1.N) (h1 : t.val % 64 = 63) :
    cellOut V c t.val t.isLt = cellOutLast c (grid1.coords t) (ms1_0 t) (hs1_0 t) (ms1_1 t) (hs1_1 t) (ms1_2 t) (hs1_2 t) (ms1_3 t) (hs1_3 t) (ms1_4 t) (hs1_4 t) (fun h => by have h' := (isFirst_iff t).mp h; omega)
      ((isLast_iff t).mpr h1) (blk1 V c 0 t) (blk1 V c 1 t) (blk1 V c 2 t) (blk1 V c 3 t) (cellOut V c (t.val - 1) (Nat.lt_of_le_of_lt (Nat.sub_le _ _) t.isLt)) := by
  obtain ⟨n, hn⟩ := t
  cases n with
  | zero => exact (by exfalso; dsimp only at h1; omega)
  | succ n => exact (dif_pos h1).trans rfl

/-! ## The proof data -/

/-- The second region's proof data on core c: the arrays as the region finds them; after the body at point t each
    input's buffer at its block and the cell's at `cellOut`; the scoped rest and the generator register untouched;
    nothing owed; an array handed to two windows held as the two halves of its full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => cellOut V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = cellOut V c t.val t.isLt := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d

/-- At a point that is not the first the cell's staging buffer holds what the body left at the point before: the
    buffer is not written back between (only after the last point), the window is live and uncut. -/
theorem before1_4_later (c : Dev nD) (t : Fin cfg1.N) (h0 : ¬t.val % 64 = 0) (d) :
    (dat1 V c).before 4 t d = cellOut V c (t.val - 1) (Nat.lt_of_le_of_lt (Nat.sub_le _ _) t.isLt) := by
  have hN : t.val < 64 := lt64 t.isLt
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
/-- The body at any point: the inputs' memrefs hold their blocks; the closed forms of the two conditions say which
    kind the point is of; at a later point the cell holds what the point before left; so that kind's run applies.
    The invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt64 t.isLt
  by_cases h0 : t.val % 64 = 0
  · rw [cellOut_first V c t h0]
    unfold cellOutFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((isFirst_iff t).mpr h0) (fun h => by have h' := (isLast_iff t).mp h; omega) (blk1 V c 0 t) (blk1 V c 1 t) (blk1 V c 2 t) (blk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · by_cases h1 : t.val % 64 = 63
    · rw [cellOut_last V c t h1]
      simp only [before1_4_later V c t h0]
      unfold cellOutLast
      iintro ⟨HΦ, Ho, ⟨%d0, H0⟩, ⟨%d1, H1⟩, ⟨%d2, H2⟩, ⟨%d3, H3⟩, ⟨%d4, H4⟩⟩
      iapply ((runLast c (grid1.coords t) _ _ _ _ _ _ _ _ _ _ (fun h => h0 ((isFirst_iff t).mp h)) ((isLast_iff t).mpr h1) (blk1 V c 0 t) (blk1 V c 1 t) (blk1 V c 2 t) (blk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [cellOut_mid V c t h0 h1]
      simp only [before1_4_later V c t h0]
      unfold cellOutMid
      iintro ⟨HΦ, Ho, ⟨%d0, H0⟩, ⟨%d1, H1⟩, ⟨%d2, H2⟩, ⟨%d3, H3⟩, ⟨%d4, H4⟩⟩
      iapply ((runMid c (grid1.coords t) _ _ _ _ _ _ _ _ _ _ (fun h => h0 ((isFirst_iff t).mp h)) (fun h => h1 ((isLast_iff t).mp h)) (blk1 V c 0 t) (blk1 V c 1 t) (blk1 V c 2 t) (blk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg1Arrays.lean ====
/-
  The second region's arrays, when two windows are handed the same array.

  The first embedding's array stands behind windows 0 and 1 and the second's behind windows 2 and 3; the output cell's
  array behind window 4 alone. The core holds each of the three buffers whole at the full share; the region's proof
  data hold each input window's array at half of it, the left half for the whole-array window and the right half for
  the centre-rows window. A full share is its two halves, so the three buffers are exactly the five windows' arrays,
  in both directions, at any contents that agree window by window.
-/
import proofs.«181465_j86723979641277_2_alg».proof.Proof.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem share1_0 (c : Dev nD) : (dat1 V c).share 0 = fullShare.left := rfl
theorem share1_1 (c : Dev nD) : (dat1 V c).share 1 = fullShare.right := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl

/-- The buffers behind the second region's windows: the two embeddings' arrays and the cell's. -/
theorem arrRefs1 : Finset.univ.image (Pipeline.arrRef spec1) = ({main_v0_0, main_v0_1, main_v1} : Finset (Ref sig .tc)) := by decide

/-- The proof data's arrays, window by window, as whole buffers at their shares. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc (Pipeline.arrRef spec1 0)) ↦{fullShare.left} Fw 0)
        ∗ (((c : Thread nD τ).loc (Pipeline.arrRef spec1 1)) ↦{fullShare.right} Fw 1)
        ∗ (((c : Thread nD τ).loc (Pipeline.arrRef spec1 2)) ↦{fullShare.left} Fw 2)
        ∗ (((c : Thread nD τ).loc (Pipeline.arrRef spec1 3)) ↦{fullShare.right} Fw 3)
        ∗ (((c : Thread nD τ).loc (Pipeline.arrRef spec1 4)) ↦{fullShare} Fw 4)) := by
  unfold Dat.arrays
  rw [bigSep_W1]
  simp only [(arr_whole1 0).set_eq_univ, (arr_whole1 1).set_eq_univ, (arr_whole1 2).set_eq_univ, (arr_whole1 3).set_eq_univ,
    (arr_whole1 4).set_eq_univ, share1_0, share1_1, share1_2, share1_3, share1_4]

/-- The three buffers at the full share, at contents V'. -/
theorem arrBufs1_eq (c : Dev nD) (V' : (b : Ref sig .tc) → Buf (Elt F) ((c : Thread nD τ).loc b)) :
    (Pipeline.arrBufs spec1 c V' : sProp 𝕄)
      = iprop((((c : Thread nD τ).loc main_v0_0) ↦{fullShare} V' main_v0_0)
        ∗ (((c : Thread nD τ).loc main_v0_1) ↦{fullShare} V' main_v0_1)
        ∗ (((c : Thread nD τ).loc main_v1) ↦{fullShare} V' main_v1)) := by
  unfold Pipeline.arrBufs
  rw [arrRefs1, bigSep_insert (by decide), bigSep_insert (by decide), BI.bigSep_singleton]
  rfl

/-- ENTRY: the three buffers whole are the five windows' arrays at their shares. -/
theorem arrays1_of_bufs (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    (Pipeline.arrBufs spec1 c V' : sProp 𝕄) ⊢ (dat1 V c).arrays Fw := by
  rw [arrays1_eq, arrBufs1_eq, hF 0, hF 1, hF 2, hF 3, hF 4]
  iintro ⟨Hs, Ht, Ho⟩
  ihave Hs := (pointsTo_share (PosShare.mem_left_op_right fullShare)).1 $$ Hs
  icases Hs with ⟨Hs1, Hs2⟩
  ihave Ht := (pointsTo_share (PosShare.mem_left_op_right fullShare)).1 $$ Ht
  icases Ht with ⟨Ht1, Ht2⟩
  isplitl [Hs1]; · iexact Hs1
  isplitl [Hs2]; · iexact Hs2
  isplitl [Ht1]; · iexact Ht1
  isplitl [Ht2]; · iexact Ht2
  iexact Ho

/-- EXIT: the five windows' arrays at their shares are the three buffers whole. -/
theorem bufs_of_arrays1 (c : Dev nD) (V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w)) :
    ((dat1 V c).arrays Fw : sProp 𝕄) ⊢ Pipeline.arrBufs spec1 c V' := by
  rw [arrays1_eq, arrBufs1_eq, hF 0, hF 1, hF 2, hF 3, hF 4]
  iintro ⟨Hs1, Hs2, Ht1, Ht2, Ho⟩
  isplitl [Hs1 Hs2]
  · iapply (pointsTo_share (PosShare.mem_left_op_right fullShare)).2
    isplitl [Hs1] <;> iassumption
  isplitl [Ht1 Ht2]
  · iapply (pointsTo_share (PosShare.mem_left_op_right fullShare)).2
    isplitl [Ht1] <;> iassumption
  iexact Ho

end Cert.KernelIdeal.Hand

end
-- ==== Proof.RunAll.lean ====
/-
  The run of the whole program: the first region, the second region, then the host's one reshape.

  Between two items core c holds every unscoped buffer whole at a valuation: the launch contents; after the first
  region those with the two embeddings' arrays at what the region wrote back; after the second region those with the
  cell's array at what that region wrote back; after the reshape those with the result buffer written. Each region's
  arrays are taken out of the unscoped buffers at its entry and put back at its exit; the second region's two shared
  arrays are divided among their windows at entry and made whole again at exit. The generator register and the
  core's debt (none) ride along. Every weakly fair execution terminates and every final memory has every unscoped
  buffer at the last valuation; the argument arrays walk back through the valuations to their launch contents.
-/
import proofs.«181465_j86723979641277_2_alg».proof.Proof.Reg0
import proofs.«181465_j86723979641277_2_alg».proof.Proof.Reg1Arrays
import proofs.«181465_j86723979641277_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second region: the cell's array at what the region wrote back, every other buffer as entered. -/
def W2 (c : Dev nD) : Valuation τ sig (Elt F) :=
  Function.update (W1 m ρ c) (Proc.devRef .tc main_v1) ((dat1 (V1 m ρ) c).arrAt 4 cfg1.N)
theorem W2_cell (c : Dev nD) : W2 m ρ c (Proc.devRef .tc main_v1) = (dat1 (V1 m ρ) c).arrAt 4 cfg1.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m ρ c b
/-- After the host's reshape. -/
abbrev W3 : Dev nD → Valuation τ sig (Elt F) := fun c => StableHlo.after hostOps2 (W2 m ρ c)

/-- At the second region's exit each window's array holds what the exit valuation has there: an input's array as
    entered, the cell's at what the region wrote back. -/
theorem hF1 (c : Dev nD) (w : Fin cfg1.W) : (dat1 (V1 m ρ) c).arrAt w cfg1.N = V2 m ρ c (Pipeline.arrRef spec1 w) := by
  match w with
  | ⟨0, _⟩ => exact (((dat1 (V1 m ρ) c).arrAt_in 0 rfl _).trans (A_eq1 (V1 m ρ) c 0)).trans (W2_of_ne m ρ c _ (by decide)).symm
  | ⟨1, _⟩ => exact (((dat1 (V1 m ρ) c).arrAt_in 1 rfl _).trans (A_eq1 (V1 m ρ) c 1)).trans (W2_of_ne m ρ c _ (by decide)).symm
  | ⟨2, _⟩ => exact (((dat1 (V1 m ρ) c).arrAt_in 2 rfl _).trans (A_eq1 (V1 m ρ) c 2)).trans (W2_of_ne m ρ c _ (by decide)).symm
  | ⟨3, _⟩ => exact (((dat1 (V1 m ρ) c).arrAt_in 3 rfl _).trans (A_eq1 (V1 m ρ) c 3)).trans (W2_of_ne m ρ c _ (by decide)).symm
  | ⟨4, _⟩ => exact (W2_cell m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨4, Finset.mem_univ _, e.symm⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_writes_sub hostOps2 _ hostOps2_writes (by decide)
    _ = W1 m ρ c (Proc.devRef .tc main_arg1) := W2_of_ne m ρ c main_arg1 (by decide)
    _ = W0 m ρ c (Proc.devRef .tc main_arg1) := (W1_arr m ρ c 3).trans (((dat0 (V0 m ρ) c).arrAt_in 3 rfl _).trans (A_eq0 (V0 m ρ) c 3))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_writes_sub hostOps2 _ hostOps2_writes (by decide)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_writes_sub hostOps2 _ hostOps2_writes (by decide)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_writes_sub hostOps2 _ hostOps2_writes (by decide)
    _ = W1 m ρ c (Proc.devRef .tc main_arg4) := W2_of_ne m ρ c main_arg4 (by decide)
    _ = W0 m ρ c (Proc.devRef .tc main_arg4) := (W1_arr m ρ c 4).trans (((dat0 (V0 m ρ) c).arrAt_in 4 rfl _).trans (A_eq0 (V0 m ρ) c 4))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_writes_sub hostOps2 _ hostOps2_writes (by decide)
    _ = W1 m ρ c (Proc.devRef .tc main_arg5) := W2_of_ne m ρ c main_arg5 (by decide)
    _ = W0 m ρ c (Proc.devRef .tc main_arg5) := (W1_arr m ρ c 5).trans (((dat0 (V0 m ρ) c).arrAt_in 5 rfl _).trans (A_eq0 (V0 m ρ) c 5))
    _ = m ((c : Thread nD τ).loc main_arg5) := rfl

/-! ## The proof data family and the thread state -/

abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (V0 m ρ) c
  | ⟨1, _⟩ => fun c => dat1 (V1 m ρ) c
abbrev 𝒱₀ : Variants := Variants.none
abbrev Lh : GSem nD τ sig → Finset Unit := fun _ => ∅
abbrev lvh : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last valuation, the register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at the launch contents, left at W1. -/
def reg0 : Pipeline.RegionSeg (pcfgs (F := F)) admH (pdats m ρ) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ Lh lvh 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at W1, left at W2. Its two shared arrays are divided among
    their windows at entry and made whole again at exit. -/
def reg1 : Pipeline.RegionSeg (pcfgs (F := F)) admH (pdats m ρ) () defs₀ 𝒱₀ Lh lvh 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ Lh lvh 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    show iprop(iprop(StableHlo.held (c : Thread nD τ) (Pipeline.ucRefs τ sig) (W1 m ρ c) ∗ R c) ∗ emp ∗ levAts Lh lvh)
      ⊢ |={Set.univ}=> iprop((dat1 (V1 m ρ) c).arrays ((dat1 (V1 m ρ) c).arrAt · 0) ∗ Pipeline.prefHeld (pcfgs (F := F) 1).pre c (fun _ => fullShare) (admH 1).1
        ∗ (dat1 (V1 m ρ) c).owesAt () 0 ∗ (∃ r, prngReg c r) ∗ Pipeline.unscopedRest spec1 c (V1 m ρ c))
    have hsplit : (unscopedBufs c (V1 m ρ c) : sProp 𝕄) ⊢ iprop(Pipeline.arrBufs spec1 c (V1 m ρ c) ∗ Pipeline.unscopedRest spec1 c (V1 m ρ c)) := by
      rw [Pipeline.unscopedBufs_split₀ cfgs 1 winFacts₀1.arr_unscoped c (V1 m ρ c)]; exact .rfl
    rw [Pipeline.unscopedBufs_held] at hsplit
    iintro ⟨⟨Hub, Hp, HO⟩, -, -⟩
    ihave H := hsplit $$ Hub
    icases H with ⟨Ha, Hrest⟩
    ihave Ha := (arrays1_of_bufs (V1 m ρ) c (V1 m ρ c) ((dat1 (V1 m ρ) c).arrAt · 0) (fun w => A_eq1 (V1 m ρ) c w)) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    show iprop((dat1 (V1 m ρ) c).arrays ((dat1 (V1 m ρ) c).arrAt · cfg1.N) ∗ (dat1 (V1 m ρ) c).owesAt () (Fin.last cfg1.N)
        ∗ (∃ r, prngReg c r) ∗ Pipeline.unscopedRest spec1 c (V1 m ρ c))
      ⊢ |={Set.univ}=> iprop(StableHlo.held (c : Thread nD τ) (Pipeline.ucRefs τ sig) (W2 m ρ c) ∗ R c)
    have hjoin : iprop(Pipeline.arrBufs spec1 c (V2 m ρ c) ∗ Pipeline.unscopedRest spec1 c (V2 m ρ c)) ⊢ (unscopedBufs c (V2 m ρ c) : sProp 𝕄) := by
      rw [Pipeline.unscopedBufs_split₀ cfgs 1 winFacts₀1.arr_unscoped c (V2 m ρ c)]; exact .rfl
    rw [Pipeline.unscopedBufs_held] at hjoin
    have hrestEq : (Pipeline.unscopedRest (Ix := Unit) (Name := ℕ) (U := UR sig nD τ) (Lvl := ℕ) spec1 c (V1 m ρ c) : sProp 𝕄)
        ⊢ Pipeline.unscopedRest spec1 c (V2 m ρ c) := by
      unfold Pipeline.unscopedRest
      exact Entails.of_eq (bigSep_congr fun b hb => by rw [hrest1 m ρ c b (Finset.mem_sdiff.mp hb).2])
    iintro ⟨Ha, HO, HY, Hrest⟩
    ihave Ha := (bufs_of_arrays1 (V1 m ρ) c (V2 m ρ c) ((dat1 (V1 m ρ) c).arrAt · cfg1.N) (hF1 m ρ c)) $$ Ha
    ihave Hrest := hrestEq $$ Hrest
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host's reshape as a segment over the unscoped buffers from W2. -/
abbrev tailSeg : Pipeline.HostSeg (Name := ℕ) (U := UR sig nD τ) (pcfgs (F := F)) defs₀ 𝒱₀ Lh lvh :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m ρ) R

/-! ## The program as segments, and the launch -/

abbrev segsH : List (Pipeline.Seg (pcfgs (F := F)) admH (pdats m ρ) () defs₀ 𝒱₀ Lh lvh) :=
  [ .region (reg0 m ρ), .region (reg1 m ρ), .host (tailSeg m ρ) ]
theorem main_run (c : Dev nD) : main (F := F) c = Pipeline.Seg.run (segsH m ρ) := (main_chain c).trans (by chain_rfl)

set_option backward.isDefEq.respectTransparency.types false in
/-- THE RUN: from any memory with zero counters every weakly fair execution of the program terminates, nothing
    faulting, and every final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) admH (pdats m ρ) () cellOf_inj emb₁ defs₀ 𝒱₀ Lh lvh m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps2 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.Hand

end
-- ==== Proof.Spec.lean ====
/-
  The angle-wise distillation loss as ONE function of the six argument arrays, over the extended reals.

  Two embeddings, s = student · W1 + b1 and t = teacher · W2 + b2, each of 512 rows and 128 columns. For an embedding x and
  three rows i, j, k: the difference vectors x_j − x_i and x_k − x_i are each divided by their Euclidean length (the
  length bounded below by ε), and the angle at i between j and k is the inner product of the two unit vectors. The
  loss is the mean over all 512³ triples of |angle_s − angle_t|: the sum of the gaps divided by 512³ = 2²⁷.
  Everything is written index by index over explicit coordinates, the two float literals as their binary words.
  The sum over the 512 centre rows is also written tile by tile (64 tiles of 8 rows), the order a row-tiled
  evaluation accumulates it in.
-/
import Idealize.ShloMosaic.PureOps.Ideal
import Idealize.ShloMosaic.Lib.ValueIdx

noncomputable section

open scoped BigOperators

namespace Cert.AngleLoss

open Idealize.ShloMosaic Idealize.ShloMosaic.ValueIdx

/-- A 512 × 512 array of extended reals. -/
abbrev Mat512 : Type := (⟨2, ![512, 512]⟩ : Shape).Idx → EReal
/-- A 512 × 128 array of extended reals. -/
abbrev Emb : Type := (⟨2, ![512, 128]⟩ : Shape).Idx → EReal
/-- A vector of 128 extended reals. -/
abbrev Bias : Type := (⟨1, ![128]⟩ : Shape).Idx → EReal

/-- The lower bound ε of a length, as the float word both programs print. -/
def eps : EReal := Ideal.ofBits .f32 0x2B8CBCCC#32
/-- The number of triples, 512³ = 2²⁷, as the float word both programs print. -/
def count : EReal := Ideal.ofBits .f32 0x4D000000#32

/-- Entry (n, e) of x · w + b. -/
def embedAt (x : Mat512) (w : Emb) (b : Bias) (n : Fin 512) (e : Fin 128) : EReal :=
  (∑ k : Fin 512, x (ix2 n k) * w (ix2 k e)) + b (ix1 e)

/-- The embedding x · w + b as an array. -/
def embed (x : Mat512) (w : Emb) (b : Bias) : Emb := fun j => embedAt x w b (j 0) (j 1)

/-- Column d of the difference of rows j and i. -/
def diff (x : Emb) (i j : Fin 512) (d : Fin 128) : EReal := x (ix2 j d) - x (ix2 i d)

/-- The length of the difference of rows j and i, bounded below by ε. -/
def len (x : Emb) (i j : Fin 512) : EReal :=
  max (Ideal.sqrt (∑ d : Fin 128, diff x i j d * diff x i j d)) eps

/-- Column d of the unit vector from row i towards row j. -/
def unit (x : Emb) (i j : Fin 512) (d : Fin 128) : EReal := Ideal.div (diff x i j d) (len x i j)

/-- The angle at row i between rows j and k: the inner product of the two unit vectors. -/
def angle (x : Emb) (i j k : Fin 512) : EReal := ∑ d : Fin 128, unit x i j d * unit x i k d

/-- The absolute difference of the two embeddings' angles at one triple. -/
def gap (s t : Emb) (i j k : Fin 512) : EReal :=
  max (angle s i j k - angle t i j k) (-(angle s i j k - angle t i j k))

/-- The sum of the gaps over all triples. -/
def total (s t : Emb) : EReal := ∑ i : Fin 512, ∑ j : Fin 512, ∑ k : Fin 512, gap s t i j k

/-- The mean gap. -/
def loss (s t : Emb) : EReal := Ideal.div (total s t) count

/-- The loss of the six argument arrays, as the scalar array both programs return. -/
def G (student teacher : Mat512) (W1 : Emb) (b1 : Bias) (W2 : Emb) (b2 : Bias) : (⟨0, ![]⟩ : Shape).Idx → EReal :=
  fun _ => loss (embed student W1 b1) (embed teacher W2 b2)

/-- Row a of tile p: row 8 p + a. -/
def rowOf (p : Fin 64) (a : Fin 8) : Fin 512 := ⟨8 * p.val + a.val, by omega⟩

/-- The gaps summed over the 8 centre rows of tile p. -/
def tileSum (s t : Emb) (p : Fin 64) : EReal :=
  ∑ a : Fin 8, ∑ j : Fin 512, ∑ k : Fin 512, gap s t (rowOf p a) j k

end Cert.AngleLoss

end
-- ==== Proof.Reg0Value.lean ====
/- Region 0 at the ideal values: what the two output arrays hold after the region, as the embeddings
   x · w + b of the arrays the region finds, entry by entry; the six input arrays are left as found. -/
import proofs.«181465_j86723979641277_2_alg».proof.Proof.Reg0
import proofs.«181465_j86723979641277_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The payload at an entry -/

theorem off2_zero : (![0, 0] : Fin 2 → Nat) = fun _ => 0 := funext fun a => by fin_cases a <;> rfl
theorem off1_zero : (![0] : Fin 1 → Nat) = fun _ => 0 := funext fun a => by fin_cases a <;> rfl

/-- The product's left operand is read at the output's row and the contraction position, -/
theorem lhs_row (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_col (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- and its right operand at the contraction position and the output's column. -/
theorem rhs_row (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_col (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The matrix product into a zero accumulator, at entry (n, e): the sum over the 512 contraction positions. -/
theorem product_at (x : Vec Ideal S512x512 .f32) (w : Vec Ideal S512x128 .f32) (n : Fin 512) (e : Fin 128) :
    matmul (φ₁ := .f32) (φ₂ := .f32) dot_S512x512_S512x128_S512x128_1_0_0_1_n_n (some .fp32) x w (constant (F := Ideal) S512x128 .f32 0x00000000#32) (ix2 n e)
      = ∑ k : Fin 512, x (ix2 n k) * w (ix2 k e) := by
  show FloatOps.matmul _ _ _ _ _ _ = _
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 n e) ((contrEquiv1 dot_S512x512_S512x128_S512x128_1_0_0_1_n_n 512 rfl rfl).symm k) = ix2 n k := funext fun a => Fin.ext (by
    match a with
    | ⟨0, _⟩ => exact lhs_row _ _
    | ⟨1, _⟩ => exact (lhs_col _ _).trans hk)
  have er : dot_S512x512_S512x128_S512x128_1_0_0_1_n_n.rhsIdx (ix2 n e) ((contrEquiv1 dot_S512x512_S512x128_S512x128_1_0_0_1_n_n 512 rfl rfl).symm k) = ix2 k e := funext fun a => Fin.ext (by
    match a with
    | ⟨0, _⟩ => exact (rhs_row _ _).trans hk
    | ⟨1, _⟩ => exact rhs_col _ _)
  rw [el, er]

/-- The first output's payload at entry (n, e): the product's sum plus the bias at e. -/
theorem pay1_at (x : Vec Ideal S512x512 .f32) (w : Vec Ideal S512x128 .f32) (b : Vec Ideal S128 .f32) (n : Fin 512) (e : Fin 128) :
    k0_pay1 x w b (ix2 n e) = (∑ k : Fin 512, x (ix2 n k) * w (ix2 k e)) + b (ix1 e) := by
  show FloatOps.addf (matmul (φ₁ := .f32) (φ₂ := .f32) dot_S512x512_S512x128_S512x128_1_0_0_1_n_n (some .fp32) x w (constant (F := Ideal) S512x128 .f32 0x00000000#32) (ix2 n e))
      (broadcastTo S512x128 (shapeCast S1x128 b shapeCasts_S128_S1x128) broadcasts_S1x128_S512x128 (ix2 n e)) = _
  rw [Ideal.addf_def, product_at, broadcastTo_1b_ab_apply, shapeCast_a_1a_apply]

/-- The second output's payload, likewise. -/
theorem pay2_at (x : Vec Ideal S512x512 .f32) (w : Vec Ideal S512x128 .f32) (b : Vec Ideal S128 .f32) (n : Fin 512) (e : Fin 128) :
    k0_pay2 x w b (ix2 n e) = (∑ k : Fin 512, x (ix2 n k) * w (ix2 k e)) + b (ix1 e) := by
  show FloatOps.addf (matmul (φ₁ := .f32) (φ₂ := .f32) dot_S512x512_S512x128_S512x128_1_0_0_1_n_n (some .fp32) x w (constant (F := Ideal) S512x128 .f32 0x00000000#32) (ix2 n e))
      (broadcastTo S512x128 (shapeCast S1x128 b shapeCasts_S128_S1x128) broadcasts_S1x128_S512x128 (ix2 n e)) = _
  rw [Ideal.addf_def, product_at, broadcastTo_1b_ab_apply, shapeCast_a_1a_apply]

/-! ## From the one block to the array -/

-- the buffer contents when the region is entered
variable (V : (c : Dev nD) → (b : Ref sig .tc) → Buf (Elt Ideal) ((c : Thread nD τ).loc b))

/-- The grid has one point, and at it every window's block index is zero on every axis. -/
theorem index_zero : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 2) = 0
    ∧ win0_7.index t (1 : Fin 2) = 0 :=
  (by decide +kernel : ∀ t : Fin grid0.N, _)

/-! Each input window's block, at an entry, is its array there: the block is the whole array. -/

theorem blk0_0_at (c : Dev nD) (t : Fin cfg0.N) (p : Fin 512) (q : Fin 512) : blk0 V c 0 t (ix2 p q) = V c main_arg0 (ix2 p q) := by
  obtain ⟨z0, z1, z2, z3, z4, z5, z6, z7, z8, z9, z10, z11, z12, z13⟩ := index_zero t
  show V c main_arg0 (((cfg0.win 0).blk t).view.emb (ix2 p q)) = V c main_arg0 (ix2 p q)
  refine congrArg (V c main_arg0) (funext fun a => Fin.ext ?_)
  match a with
  | ⟨0, _⟩ => show win0_0.index t (0 : Fin 2) * 512 + 1 * p.val = p.val; omega
  | ⟨1, _⟩ => show win0_0.index t (1 : Fin 2) * 512 + 1 * q.val = q.val; omega

theorem blk0_1_at (c : Dev nD) (t : Fin cfg0.N) (p : Fin 512) (q : Fin 128) : blk0 V c 1 t (ix2 p q) = V c main_arg2 (ix2 p q) := by
  obtain ⟨z0, z1, z2, z3, z4, z5, z6, z7, z8, z9, z10, z11, z12, z13⟩ := index_zero t
  show V c main_arg2 (((cfg0.win 1).blk t).view.emb (ix2 p q)) = V c main_arg2 (ix2 p q)
  refine congrArg (V c main_arg2) (funext fun a => Fin.ext ?_)
  match a with
  | ⟨0, _⟩ => show win0_1.index t (0 : Fin 2) * 512 + 1 * p.val = p.val; omega
  | ⟨1, _⟩ => show win0_1.index t (1 : Fin 2) * 128 + 1 * q.val = q.val; omega

theorem blk0_2_at (c : Dev nD) (t : Fin cfg0.N) (p : Fin 128) : blk0 V c 2 t (ix1 p) = V c main_arg3 (ix1 p) := by
  obtain ⟨z0, z1, z2, z3, z4, z5, z6, z7, z8, z9, z10, z11, z12, z13⟩ := index_zero t
  show V c main_arg3 (((cfg0.win 2).blk t).view.emb (ix1 p)) = V c main_arg3 (ix1 p)
  refine congrArg (V c main_arg3) (funext fun a => Fin.ext ?_)
  match a with
  | ⟨0, _⟩ => show win0_2.index t (0 : Fin 1) * 128 + 1 * p.val = p.val; omega

theorem blk0_3_at (c : Dev nD) (t : Fin cfg0.N) (p : Fin 512) (q : Fin 512) : blk0 V c 3 t (ix2 p q) = V c main_arg1 (ix2 p q) := by
  obtain ⟨z0, z1, z2, z3, z4, z5, z6, z7, z8, z9, z10, z11, z12, z13⟩ := index_zero t
  show V c main_arg1 (((cfg0.win 3).blk t).view.emb (ix2 p q)) = V c main_arg1 (ix2 p q)
  refine congrArg (V c main_arg1) (funext fun a => Fin.ext ?_)
  match a with
  | ⟨0, _⟩ => show win0_3.index t (0 : Fin 2) * 512 + 1 * p.val = p.val; omega
  | ⟨1, _⟩ => show win0_3.index t (1 : Fin 2) * 512 + 1 * q.val = q.val; omega

theorem blk0_4_at (c : Dev nD) (t : Fin cfg0.N) (p : Fin 512) (q : Fin 128) : blk0 V c 4 t (ix2 p q) = V c main_arg4 (ix2 p q) := by
  obtain ⟨z0, z1, z2, z3, z4, z5, z6, z7, z8, z9, z10, z11, z12, z13⟩ := index_zero t
  show V c main_arg4 (((cfg0.win 4).blk t).view.emb (ix2 p q)) = V c main_arg4 (ix2 p q)
  refine congrArg (V c main_arg4) (funext fun a => Fin.ext ?_)
  match a with
  | ⟨0, _⟩ => show win0_4.index t (0 : Fin 2) * 512 + 1 * p.val = p.val; omega
  | ⟨1, _⟩ => show win0_4.index t (1 : Fin 2) * 128 + 1 * q.val = q.val; omega

theorem blk0_5_at (c : Dev nD) (t : Fin cfg0.N) (p : Fin 128) : blk0 V c 5 t (ix1 p) = V c main_arg5 (ix1 p) := by
  obtain ⟨z0, z1, z2, z3, z4, z5, z6, z7, z8, z9, z10, z11, z12, z13⟩ := index_zero t
  show V c main_arg5 (((cfg0.win 5).blk t).view.emb (ix1 p)) = V c main_arg5 (ix1 p)
  refine congrArg (V c main_arg5) (funext fun a => Fin.ext ?_)
  match a with
  | ⟨0, _⟩ => show win0_5.index t (0 : Fin 1) * 128 + 1 * p.val = p.val; omega

/-- What the one point writes back of output window 6 is the block of the embedding of the arrays the region finds. -/
theorem flushed6_eq (c : Dev nD) (t : Fin cfg0.N) :
    (dat0 (F := Ideal) V c).flushed 6 t = ((cfg0.win 6).blk t).view.read (Elt Ideal) (Cert.AngleLoss.embed (V c main_arg0) (V c main_arg2) (V c main_arg3)) := by
  show (cfg0.win 6).cut (grid0.coords t) ((dat0 V c).after 6 t) = _
  rw [after0_6]
  unfold embS
  rw [View.canon_unit_zero off2_zero]
  simp only [View.ld_unit_zero (S := S512x512) off2_zero, View.ld_unit_zero (S := S512x128) off2_zero, View.ld_unit_zero (S := S128) off1_zero]
  funext j
  obtain ⟨n, e, rfl⟩ : ∃ (n : Fin 512) (e : Fin 128), j = ix2 n e := ⟨j 0, j 1, eq_ix2 j⟩
  show k0_pay1 (blk0 V c 0 t) (blk0 V c 1 t) (blk0 V c 2 t) (ix2 n e) = Cert.AngleLoss.embed (V c main_arg0) (V c main_arg2) (V c main_arg3) (((cfg0.win 6).blk t).view.emb (ix2 n e))
  refine (pay1_at _ _ _ n e).trans ?_
  have hemb : ((cfg0.win 6).blk t).view.emb (ix2 n e) = ix2 n e := by
    obtain ⟨z0, z1, z2, z3, z4, z5, z6, z7, z8, z9, z10, z11, z12, z13⟩ := index_zero t
    refine funext fun a => Fin.ext ?_
    match a with
    | ⟨0, _⟩ => show win0_6.index t (0 : Fin 2) * 512 + 1 * n.val = n.val; omega
    | ⟨1, _⟩ => show win0_6.index t (1 : Fin 2) * 128 + 1 * e.val = e.val; omega
  rw [hemb]
  show _ = Cert.AngleLoss.embedAt (V c main_arg0) (V c main_arg2) (V c main_arg3) n e
  unfold Cert.AngleLoss.embedAt
  rw [blk0_2_at]
  congr 1
  exact Finset.sum_congr rfl fun k _ => by rw [blk0_0_at, blk0_1_at]

/-- An index of the array is in the point's block iff each coordinate is in the block's range on its axis. -/
theorem mem_blk6 (t : Fin cfg0.N) (i : S512x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v0_0).slice (win0_6.rect t)).set ↔ _
  rw [View.set_slice_whole, Rect.mem_set_unit]
  exact Iff.rfl

/-- The one block is the whole array. -/
theorem cover6 (i : S512x128.Idx) : ∃ t : Fin cfg0.N, (cfg0.win 6).flush t = true ∧ i ∈ ((cfg0.win 6).blk t).view.set := by
  refine ⟨t0_0, flush0_6 _, ?_⟩
  rw [mem_blk6]
  obtain ⟨z0, z1, z2, z3, z4, z5, z6, z7, z8, z9, z10, z11, z12, z13⟩ := index_zero t0_0
  intro a
  match a with
  | ⟨0, _⟩ => show win0_6.index t0_0 (0 : Fin 2) * 512 ≤ (i 0).val ∧ (i 0).val < win0_6.index t0_0 (0 : Fin 2) * 512 + 512; have h : (i 0).val < 512 := (i 0).isLt; omega
  | ⟨1, _⟩ => show win0_6.index t0_0 (1 : Fin 2) * 128 ≤ (i 1).val ∧ (i 1).val < win0_6.index t0_0 (1 : Fin 2) * 128 + 128; have h : (i 1).val < 128 := (i 1).isLt; omega

/-- Output array 0 after the region: the embedding of the arrays the region finds. -/
theorem arrAt0_6 (c : Dev nD) :
    (dat0 (F := Ideal) V c).arrAt 6 cfg0.N = Cert.AngleLoss.embed (V c main_arg0) (V c main_arg2) (V c main_arg3) :=
  (dat0 (F := Ideal) V c).arrAt_eq_of_cover 6 (Cert.AngleLoss.embed (V c main_arg0) (V c main_arg2) (V c main_arg3)) (fun t _ => flushed6_eq V c t) (cover6)

/-- What the one point writes back of output window 7 is the block of the embedding of the arrays the region finds. -/
theorem flushed7_eq (c : Dev nD) (t : Fin cfg0.N) :
    (dat0 (F := Ideal) V c).flushed 7 t = ((cfg0.win 7).blk t).view.read (Elt Ideal) (Cert.AngleLoss.embed (V c main_arg1) (V c main_arg4) (V c main_arg5)) := by
  show (cfg0.win 7).cut (grid0.coords t) ((dat0 V c).after 7 t) = _
  rw [after0_7]
  unfold embT
  rw [View.canon_unit_zero off2_zero]
  simp only [View.ld_unit_zero (S := S512x512) off2_zero, View.ld_unit_zero (S := S512x128) off2_zero, View.ld_unit_zero (S := S128) off1_zero]
  funext j
  obtain ⟨n, e, rfl⟩ : ∃ (n : Fin 512) (e : Fin 128), j = ix2 n e := ⟨j 0, j 1, eq_ix2 j⟩
  show k0_pay2 (blk0 V c 3 t) (blk0 V c 4 t) (blk0 V c 5 t) (ix2 n e) = Cert.AngleLoss.embed (V c main_arg1) (V c main_arg4) (V c main_arg5) (((cfg0.win 7).blk t).view.emb (ix2 n e))
  refine (pay2_at _ _ _ n e).trans ?_
  have hemb : ((cfg0.win 7).blk t).view.emb (ix2 n e) = ix2 n e := by
    obtain ⟨z0, z1, z2, z3, z4, z5, z6, z7, z8, z9, z10, z11, z12, z13⟩ := index_zero t
    refine funext fun a => Fin.ext ?_
    match a with
    | ⟨0, _⟩ => show win0_7.index t (0 : Fin 2) * 512 + 1 * n.val = n.val; omega
    | ⟨1, _⟩ => show win0_7.index t (1 : Fin 2) * 128 + 1 * e.val = e.val; omega
  rw [hemb]
  show _ = Cert.AngleLoss.embedAt (V c main_arg1) (V c main_arg4) (V c main_arg5) n e
  unfold Cert.AngleLoss.embedAt
  rw [blk0_5_at]
  congr 1
  exact Finset.sum_congr rfl fun k _ => by rw [blk0_3_at, blk0_4_at]

/-- An index of the array is in the point's block iff each coordinate is in the block's range on its axis. -/
theorem mem_blk7 (t : Fin cfg0.N) (i : S512x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v0_1).slice (win0_7.rect t)).set ↔ _
  rw [View.set_slice_whole, Rect.mem_set_unit]
  exact Iff.rfl

/-- The one block is the whole array. -/
theorem cover7 (i : S512x128.Idx) : ∃ t : Fin cfg0.N, (cfg0.win 7).flush t = true ∧ i ∈ ((cfg0.win 7).blk t).view.set := by
  refine ⟨t0_0, flush0_7 _, ?_⟩
  rw [mem_blk7]
  obtain ⟨z0, z1, z2, z3, z4, z5, z6, z7, z8, z9, z10, z11, z12, z13⟩ := index_zero t0_0
  intro a
  match a with
  | ⟨0, _⟩ => show win0_7.index t0_0 (0 : Fin 2) * 512 ≤ (i 0).val ∧ (i 0).val < win0_7.index t0_0 (0 : Fin 2) * 512 + 512; have h : (i 0).val < 512 := (i 0).isLt; omega
  | ⟨1, _⟩ => show win0_7.index t0_0 (1 : Fin 2) * 128 ≤ (i 1).val ∧ (i 1).val < win0_7.index t0_0 (1 : Fin 2) * 128 + 128; have h : (i 1).val < 128 := (i 1).isLt; omega

/-- Output array 1 after the region: the embedding of the arrays the region finds. -/
theorem arrAt0_7 (c : Dev nD) :
    (dat0 (F := Ideal) V c).arrAt 7 cfg0.N = Cert.AngleLoss.embed (V c main_arg1) (V c main_arg4) (V c main_arg5) :=
  (dat0 (F := Ideal) V c).arrAt_eq_of_cover 7 (Cert.AngleLoss.embed (V c main_arg1) (V c main_arg4) (V c main_arg5)) (fun t _ => flushed7_eq V c t) (cover7)

/-! The input arrays are left as the region finds them. -/
theorem arrAt0_0 (c : Dev nD) : (dat0 (F := Ideal) V c).arrAt 0 cfg0.N = V c (Pipeline.arrRef spec0 0) :=
  ((dat0 (F := Ideal) V c).arrAt_in 0 rfl cfg0.N).trans (A_eq0 V c 0)
theorem arrAt0_1 (c : Dev nD) : (dat0 (F := Ideal) V c).arrAt 1 cfg0.N = V c (Pipeline.arrRef spec0 1) :=
  ((dat0 (F := Ideal) V c).arrAt_in 1 rfl cfg0.N).trans (A_eq0 V c 1)
theorem arrAt0_2 (c : Dev nD) : (dat0 (F := Ideal) V c).arrAt 2 cfg0.N = V c (Pipeline.arrRef spec0 2) :=
  ((dat0 (F := Ideal) V c).arrAt_in 2 rfl cfg0.N).trans (A_eq0 V c 2)
theorem arrAt0_3 (c : Dev nD) : (dat0 (F := Ideal) V c).arrAt 3 cfg0.N = V c (Pipeline.arrRef spec0 3) :=
  ((dat0 (F := Ideal) V c).arrAt_in 3 rfl cfg0.N).trans (A_eq0 V c 3)
theorem arrAt0_4 (c : Dev nD) : (dat0 (F := Ideal) V c).arrAt 4 cfg0.N = V c (Pipeline.arrRef spec0 4) :=
  ((dat0 (F := Ideal) V c).arrAt_in 4 rfl cfg0.N).trans (A_eq0 V c 4)
theorem arrAt0_5 (c : Dev nD) : (dat0 (F := Ideal) V c).arrAt 5 cfg0.N = V c (Pipeline.arrRef spec0 5) :=
  ((dat0 (F := Ideal) V c).arrAt_in 5 rfl cfg0.N).trans (A_eq0 V c 5)

end Cert.KernelIdeal.Hand

end
-- ==== Proof.CellPure.lean ====
/-
  What the second kernel leaves in its one-cell output block, point by point, as pure functions of the blocks it loads.

  The kernel visits 64 points; at point n it loads both embeddings whole and rows 8 n … 8 n + 7 of each (the centre
  rows), forms the angle differences of those centre rows against all pairs of rows, and adds the sum of their
  absolute values to the cell. The cell is first set to zero at point 0 and is divided by the number of triples at
  point 63. So after point n the cell holds the sum over the first n + 1 tiles, and after the last point that sum
  over all tiles divided by the count.
-/
import proofs.«181465_j86723979641277_2_alg».proof.Proof.Gen.KernelIdeal.Skeleton
import Idealize.ShloMosaic.Lib.ValueIdx

noncomputable section

namespace Cert.KernelIdeal.Hand

open Idealize.ShloMosaic Idealize.ShloMosaic.ValueIdx
open Cert.KernelIdeal Cert.KernelIdeal.Gen

variable {F : FTy → Type} [FloatOps F]

/-- Rows 8 n … 8 n + 7 of a 512-row array: the centre rows of tile n. -/
def rows (x : Vec F S512x128 .f32) (n : Nat) : Vec F S8x128 .f32 :=
  fun y => x (ix2 (⟨(8 * n + (y 0).val) % 512, Nat.mod_lt _ (by decide)⟩ : Fin 512) (y 1))

/-- The cell after the first point: zero, then the first tile's sum added. -/
def cellFirst (sF tF : Vec F S512x128 .f32) (sC tC : Vec F S8x128 .f32) : Vec F S1x1 .f32 :=
  k1_pay1 (k1_pay4 sF tF sC tC) (k1_pay3 (F := F))

/-- The cell after a middle point: the tile's sum added to what the point before left. -/
def cellMid (sF tF : Vec F S512x128 .f32) (sC tC : Vec F S8x128 .f32) (prev : Vec F S1x1 .f32) : Vec F S1x1 .f32 :=
  k1_pay1 (k1_pay4 sF tF sC tC) prev

/-- The cell after the last point: the tile's sum added, then the whole divided by the count. -/
def cellLast (sF tF : Vec F S512x128 .f32) (sC tC : Vec F S8x128 .f32) (prev : Vec F S1x1 .f32) : Vec F S1x1 .f32 :=
  k1_pay2 (k1_pay1 (k1_pay4 sF tF sC tC) prev)

/-- The cell after point n, by recursion on the point: the centre rows of point n are `sC n`, `tC n`. -/
def cellAt (sF tF : Vec F S512x128 .f32) (sC tC : Nat → Vec F S8x128 .f32) : Nat → Vec F S1x1 .f32
  | 0 => cellFirst sF tF (sC 0) (tC 0)
  | n + 1 => if n + 1 = 63 then cellLast sF tF (sC (n + 1)) (tC (n + 1)) (cellAt sF tF sC tC n)
             else cellMid sF tF (sC (n + 1)) (tC (n + 1)) (cellAt sF tF sC tC n)

end Cert.KernelIdeal.Hand

end
-- ==== Proof.Reg1Blocks.lean ====
/- The second kernel region's blocks as parts of the arrays the region finds, and the one-cell output array after
   the region. Windows 0 and 2 hold the two embeddings whole at every point; windows 1 and 3 hold, at point n, rows
   8 n … 8 n + 7 of them; the output cell is written back once, after the last point, and its one block is the
   whole 1 x 1 array, so the array ends holding what the last point leaves in the cell. -/
import proofs.«181465_j86723979641277_2_alg».proof.Proof.Reg1
import proofs.«181465_j86723979641277_2_alg».proof.Proof.CellPure
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

-- the buffer contents when the region is entered
variable (V : (c : Dev nD) → (b : Ref sig .tc) → Buf (Elt F) ((c : Thread nD τ).loc b))

/-! ## The block indices over the 64 points -/

/-- Windows 0, 2 and 4 have block index zero on both axes at every point; windows 1 and 3 have the point's number
    on the row axis and zero on the column axis. -/
theorem index1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

/-! ## The input blocks -/

/-- Window 0's block is the first embedding whole: an element sits at block index times block size plus its
    coordinate inside the block, and the index is zero. -/
theorem blk1_0_eq (c : Dev nD) (t : Fin cfg1.N) : (blk1 V c 0 t : S512x128.Idx → Elt F .f32) = V c main_v0_0 := by
  obtain ⟨a00, a01, a10, a11, a20, a21, a30, a31, a40, a41⟩ := index1 t
  funext j
  obtain ⟨p, q, rfl⟩ : ∃ (p : Fin 512) (q : Fin 128), j = ix2 p q := ⟨j 0, j 1, eq_ix2 j⟩
  show V c main_v0_0 (((cfg1.win 0).blk t).view.emb (ix2 p q)) = V c main_v0_0 (ix2 p q)
  refine congrArg (V c main_v0_0) (funext fun a => Fin.ext ?_)
  match a with
  | ⟨0, _⟩ => show win1_0.index t (0 : Fin 2) * 512 + 1 * p.val = p.val; omega
  | ⟨1, _⟩ => show win1_0.index t (1 : Fin 2) * 128 + 1 * q.val = q.val; omega

/-- Window 2's block is the second embedding whole. -/
theorem blk1_2_eq (c : Dev nD) (t : Fin cfg1.N) : (blk1 V c 2 t : S512x128.Idx → Elt F .f32) = V c main_v0_1 := by
  obtain ⟨a00, a01, a10, a11, a20, a21, a30, a31, a40, a41⟩ := index1 t
  funext j
  obtain ⟨p, q, rfl⟩ : ∃ (p : Fin 512) (q : Fin 128), j = ix2 p q := ⟨j 0, j 1, eq_ix2 j⟩
  show V c main_v0_1 (((cfg1.win 2).blk t).view.emb (ix2 p q)) = V c main_v0_1 (ix2 p q)
  refine congrArg (V c main_v0_1) (funext fun a => Fin.ext ?_)
  match a with
  | ⟨0, _⟩ => show win1_2.index t (0 : Fin 2) * 512 + 1 * p.val = p.val; omega
  | ⟨1, _⟩ => show win1_2.index t (1 : Fin 2) * 128 + 1 * q.val = q.val; omega

/-- Window 1's block at point n is rows 8 n … 8 n + 7 of the first embedding: 8 n + r < 512, so the row is not
    wrapped. -/
theorem blk1_1_eq (c : Dev nD) (t : Fin cfg1.N) : (blk1 V c 1 t : S8x128.Idx → Elt F .f32) = rows (V c main_v0_0) t.val := by
  obtain ⟨a00, a01, a10, a11, a20, a21, a30, a31, a40, a41⟩ := index1 t
  have hN : t.val < 64 := lt64 t.isLt
  funext j
  obtain ⟨p, q, rfl⟩ : ∃ (p : Fin 8) (q : Fin 128), j = ix2 p q := ⟨j 0, j 1, eq_ix2 j⟩
  show V c main_v0_0 (((cfg1.win 1).blk t).view.emb (ix2 p q)) = V c main_v0_0 (ix2 (⟨(8 * t.val + p.val) % 512, Nat.mod_lt _ (by decide)⟩ : Fin 512) q)
  refine congrArg (V c main_v0_0) (funext fun a => Fin.ext ?_)
  match a with
  | ⟨0, _⟩ => show win1_1.index t (0 : Fin 2) * 8 + 1 * p.val = (8 * t.val + p.val) % 512; have hp : p.val < 8 := p.isLt; omega
  | ⟨1, _⟩ => show win1_1.index t (1 : Fin 2) * 128 + 1 * q.val = q.val; omega

/-- Window 3's block at point n is rows 8 n … 8 n + 7 of the second embedding. -/
theorem blk1_3_eq (c : Dev nD) (t : Fin cfg1.N) : (blk1 V c 3 t : S8x128.Idx → Elt F .f32) = rows (V c main_v0_1) t.val := by
  obtain ⟨a00, a01, a10, a11, a20, a21, a30, a31, a40, a41⟩ := index1 t
  have hN : t.val < 64 := lt64 t.isLt
  funext j
  obtain ⟨p, q, rfl⟩ : ∃ (p : Fin 8) (q : Fin 128), j = ix2 p q := ⟨j 0, j 1, eq_ix2 j⟩
  show V c main_v0_1 (((cfg1.win 3).blk t).view.emb (ix2 p q)) = V c main_v0_1 (ix2 (⟨(8 * t.val + p.val) % 512, Nat.mod_lt _ (by decide)⟩ : Fin 512) q)
  refine congrArg (V c main_v0_1) (funext fun a => Fin.ext ?_)
  match a with
  | ⟨0, _⟩ => show win1_3.index t (0 : Fin 2) * 8 + 1 * p.val = (8 * t.val + p.val) % 512; have hp : p.val < 8 := p.isLt; omega
  | ⟨1, _⟩ => show win1_3.index t (1 : Fin 2) * 128 + 1 * q.val = q.val; omega

/-! ## The output cell's array after the region -/

/-- The last point's number is inside the grid. -/
theorem last_lt : 63 < cfg1.N := lt_of_lt_of_eq (by decide : 63 < 64) (show 64 = cfg1.N from N_1.symm)

/-- What a point that writes the cell back writes: such a point is the last, and its block is the cell whole. -/
theorem flushed1_4_eq (c : Dev nD) (t : Fin cfg1.N) (hf : (cfg1.win 4).flush t = true) :
    (dat1 V c).flushed 4 t = ((cfg1.win 4).blk t).view.read (Elt F) (cellOut V c 63 last_lt) := by
  have h63 : t.val % 64 = 63 := (flush1_4 t).mp hf
  have hN : t.val < 64 := lt64 t.isLt
  obtain ⟨a00, a01, a10, a11, a20, a21, a30, a31, a40, a41⟩ := index1 t
  obtain ⟨n, hn⟩ := t
  have hn63 : n = 63 := by dsimp only at h63 hN; omega
  subst hn63
  show (cfg1.win 4).cut (grid1.coords ⟨63, hn⟩) ((dat1 V c).after 4 ⟨63, hn⟩) = _
  rw [after1_4]
  funext j
  show cellOut V c 63 hn j = cellOut V c 63 last_lt (((cfg1.win 4).blk ⟨63, hn⟩).view.emb j)
  refine congrArg (cellOut V c 63 hn) (funext fun a => Fin.ext ?_)
  match a with
  | ⟨0, _⟩ => show (j 0).val = win1_4.index ⟨63, hn⟩ (0 : Fin 2) * 1 + 1 * (j 0).val; omega
  | ⟨1, _⟩ => show (j 1).val = win1_4.index ⟨63, hn⟩ (1 : Fin 2) * 1 + 1 * (j 1).val; omega

/-- An index of the cell's array is in a point's block iff each coordinate is in the block's range on its axis. -/
theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v1).slice (win1_4.rect t)).set ↔ _
  rw [View.set_slice_whole, Rect.mem_set_unit]
  exact Iff.rfl

/-- The last point's block covers the cell's array. -/
theorem cover1_4 (i : S1x1.Idx) : ∃ t : Fin cfg1.N, (cfg1.win 4).flush t = true ∧ i ∈ ((cfg1.win 4).blk t).view.set := by
  refine ⟨⟨63, last_lt⟩, (flush1_4 _).mpr (by decide), ?_⟩
  rw [mem_blk1_4]
  obtain ⟨a00, a01, a10, a11, a20, a21, a30, a31, a40, a41⟩ := index1 ⟨63, last_lt⟩
  intro a
  match a with
  | ⟨0, _⟩ => show win1_4.index ⟨63, last_lt⟩ (0 : Fin 2) * 1 ≤ (i 0).val ∧ (i 0).val < win1_4.index ⟨63, last_lt⟩ (0 : Fin 2) * 1 + 1; have h : (i 0).val < 1 := (i 0).isLt; omega
  | ⟨1, _⟩ => show win1_4.index ⟨63, last_lt⟩ (1 : Fin 2) * 1 ≤ (i 1).val ∧ (i 1).val < win1_4.index ⟨63, last_lt⟩ (1 : Fin 2) * 1 + 1; have h : (i 1).val < 1 := (i 1).isLt; omega

/-- The cell's array after the region: what the last point leaves in the cell. -/
theorem arrAt1_4 (c : Dev nD) : (dat1 V c).arrAt 4 cfg1.N = cellOut V c 63 last_lt :=
  (dat1 V c).arrAt_eq_of_cover 4 (cellOut V c 63 last_lt) (fun t hf => flushed1_4_eq V c t hf) cover1_4

end Cert.KernelIdeal.Hand

end
-- ==== Proof.CellPieces.lean ====
/-
  What each of the three kinds of point of the second region leaves in the one-cell output, as a pure function of the
  blocks the point loads.

  Every store of the body covers the whole 1 × 1 cell, so the cell holds the payload of the point's LAST store, and an
  earlier store matters only through the load that reads it back. Every load reads a whole block. So: at the first
  point the cell is zero with the tile's sum added; at a middle point it is what it held with the tile's sum added; at
  the last point it is that again, divided by the count. The whole embeddings are the first and third blocks loaded, the
  centre rows the second and fourth.
-/
import proofs.«181465_j86723979641277_2_alg».proof.Proof.Reg1
import proofs.«181465_j86723979641277_2_alg».proof.Proof.CellPure
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a two-axis block, as a function. -/
theorem hz2 : (![0, 0] : Fin 2 → Nat) = fun _ => 0 := funext fun a => by fin_cases a <;> rfl

/-- The first point: the zero cell is stored, read back, and the tile's sum added to it; that last store covers the
    cell, so it alone is what the cell holds. -/
theorem cellOutFirst_eq (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : isFirst i) (hc1 : ¬isLast i)
    (x0 : Vec F S512x128 .f32) (x1 : Vec F S8x128 .f32) (x2 : Vec F S512x128 .f32) (x3 : Vec F S8x128 .f32) :
    cellOutFirst c i arg1 harg1 arg2 harg2 arg3 harg3 arg4 harg4 arg5 harg5 hc0 hc1 x0 x1 x2 x3 = cellFirst x0 x2 x1 x3 := by
  unfold cellOutFirst
  rw [View.read_writes_eq_canon _ _ _ (coverFirst c i arg1 harg1 arg2 harg2 arg3 harg3 arg4 harg4 arg5 harg5 hc0 hc1 x0 x1 x2 x3)]
  unfold runFirst
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread,
    View.ld_unit_zero (S := S512x128) hz2, View.ld_unit_zero (S := S8x128) hz2]
  rfl

/-- A middle point: one store, of the tile's sum added to what the cell held. -/
theorem cellOutMid_eq (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : ¬isLast i)
    (x0 : Vec F S512x128 .f32) (x1 : Vec F S8x128 .f32) (x2 : Vec F S512x128 .f32) (x3 : Vec F S8x128 .f32) (xo : Vec F S1x1 .f32) :
    cellOutMid c i arg1 harg1 arg2 harg2 arg3 harg3 arg4 harg4 arg5 harg5 hc0 hc1 x0 x1 x2 x3 xo = cellMid x0 x2 x1 x3 xo := by
  unfold cellOutMid
  rw [View.read_writes_eq_canon _ _ _ (coverMid c i arg1 harg1 arg2 harg2 arg3 harg3 arg4 harg4 arg5 harg5 hc0 hc1 x0 x1 x2 x3 xo)]
  unfold runMid
  dsimp only
  sl_unfold_words
  rw [View.canon_unit_zero (S := S1x1) hz2]
  simp only [View.readAt_eq_ld, harg1.read_unread, harg2.read_unread, harg3.read_unread, harg4.read_unread, harg5.read_unread,
    View.ld_unit_zero (S := S512x128) hz2, View.ld_unit_zero (S := S8x128) hz2, View.ld_unit_zero (S := S1x1) hz2]
  rfl

/-- The last point: the tile's sum is added to what the cell held and stored, that is read back, and its quotient by
    the count is stored over it. -/
theorem cellOutLast_eq (c : Dev nD) (i : grid1.Coords)
    (arg1 : Memref sig .tc .vmem S512x128 .f32) (harg1 : arg1.IsWhole) (arg2 : Memref sig .tc .vmem S8x128 .f32) (harg2 : arg2.IsWhole)
    (arg3 : Memref sig .tc .vmem S512x128 .f32) (harg3 : arg3.IsWhole) (arg4 : Memref sig .tc .vmem S8x128 .f32) (harg4 : arg4.IsWhole)
    (arg5 : Memref sig .tc .vmem S1x1 .f32) (harg5 : arg5.IsWhole) (hc0 : ¬isFirst i) (hc1 : isLast i)
    (x0 : Vec F S512x128 .f32) (x1 : Vec F S8x128 .f32) (x2 : Vec F S512x128 .f32) (x3 : Vec F S8x128 .f32) (xo : Vec F S1x1 .f32) :
    cellOutLast c i arg1 harg1 arg2 harg2 arg3 harg3 arg4 harg4 arg5 harg5 hc0 hc1 x0 x1 x2 x3 xo = cellLast x0 x2 x1 x3 xo := by
  unfold cellOutLast
  rw [View.read_writes_eq_canon _ _ _ (coverLast c i arg1 harg1 arg2 harg2 arg3 harg3 arg4 harg4 arg5 harg5 hc0 hc1 x0 x1 x2 x3 xo)]
  unfold runLast
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread,
    View.ld_unit_zero (S := S512x128) hz2, View.ld_unit_zero (S := S8x128) hz2, View.ld_unit_zero (S := S1x1) hz2]
  rfl

end Cert.KernelIdeal.Hand

end
-- ==== Proof.CellValue.lean ====
/-
  The value of the second kernel's one-cell accumulator, over the extended reals.

  At point n the kernel holds both embeddings whole and the 8 centre rows 8 n … 8 n + 7 of each. For a centre row a and
  rows j, k it forms the difference vectors x_j − x_a, divides each by its Euclidean length (bounded below by ε), and
  takes the inner product of the two unit vectors: the angle at a between j and k. The tile's 8 × 512 × 512 table is the
  student's angles minus the teacher's; the cell receives the sum of the absolute values of the table. Read index by
  index, each layout step (a reshape that adds or keeps a unit axis, a repetition along an axis) picks one coordinate,
  each lane sum is a finite sum over one coordinate, the narrowing to the short float format changes nothing over the
  extended reals, and the batched product at (a, j, k) is the sum over the 128 columns of the products of rows j and k of
  slab a. So the table is the loss's angle difference at the triple (8 n + a, j, k), the cell after point n < 63 is the sum
  of the gaps over tiles 0 … n, and after point 63 it is the sum over all 64 tiles divided by the number of triples.
-/
import proofs.«181465_j86723979641277_2_alg».proof.Proof.CellPure
import proofs.«181465_j86723979641277_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HandValue

open Idealize.ShloMosaic Idealize.ShloMosaic.ValueIdx
open Cert.KernelIdeal Cert.KernelIdeal.Gen Cert.KernelIdeal.Hand

/-! ## Lane sums and the keep-dimension reshapes, at explicit coordinates -/

/-- A sum over the last axis of an 8 × 512 × 512 array, read at (a, j). -/
theorem sumLast512 (src : FVec Ideal S8x512x512 .f32) (h : S8x512x512.Reduces [2] S8x512) (hφ : FKind.Formats .f32)
    (hacc : (0x00000000#32 : BitVec 32) = FKind.add.neutral .f32 hφ) (a : Fin 8) (j : Fin 512) :
    multiReduction (F := Ideal) .add [2] S8x512 src 0x00000000#32 h hφ hacc (ix2 a j) = ∑ k : Fin 512, src (ix3 a j k) :=
  (Ideal.multiReduction_add_single src 0x00000000#32 h hφ hacc (ix2 a j)).trans
    (Finset.sum_congr rfl fun k _ => congrArg src (funext fun ax => Fin.ext (match ax with
      | ⟨0, _⟩ => rfl
      | ⟨1, _⟩ => rfl
      | ⟨2, _⟩ => rfl)))

/-- A sum over the last axis of an 8 × 512 × 128 array, read at (a, j). -/
theorem sumLast128 (src : FVec Ideal S8x512x128 .f32) (h : S8x512x128.Reduces [2] S8x512) (hφ : FKind.Formats .f32)
    (hacc : (0x00000000#32 : BitVec 32) = FKind.add.neutral .f32 hφ) (a : Fin 8) (j : Fin 512) :
    multiReduction (F := Ideal) .add [2] S8x512 src 0x00000000#32 h hφ hacc (ix2 a j) = ∑ d : Fin 128, src (ix3 a j d) :=
  (Ideal.multiReduction_add_single src 0x00000000#32 h hφ hacc (ix2 a j)).trans
    (Finset.sum_congr rfl fun k _ => congrArg src (funext fun ax => Fin.ext (match ax with
      | ⟨0, _⟩ => rfl
      | ⟨1, _⟩ => rfl
      | ⟨2, _⟩ => rfl)))

/-- A sum over the second axis of an 8 × 512 array, read at a. -/
theorem sumRows512 (src : FVec Ideal S8x512 .f32) (h : S8x512.Reduces [1] S8) (hφ : FKind.Formats .f32)
    (hacc : (0x00000000#32 : BitVec 32) = FKind.add.neutral .f32 hφ) (a : Fin 8) :
    multiReduction (F := Ideal) .add [1] S8 src 0x00000000#32 h hφ hacc (ix1 a) = ∑ j : Fin 512, src (ix2 a j) :=
  (Ideal.multiReduction_add_single src 0x00000000#32 h hφ hacc (ix1 a)).trans
    (Finset.sum_congr rfl fun k _ => congrArg src (funext fun ax => Fin.ext (match ax with
      | ⟨0, _⟩ => rfl
      | ⟨1, _⟩ => rfl)))

/-- A sum over the first axis of an 8 × 1 array, read at its one column. -/
theorem sumCol8 (src : FVec Ideal S8x1 .f32) (h : S8x1.Reduces [0] S1) (hφ : FKind.Formats .f32)
    (hacc : (0x00000000#32 : BitVec 32) = FKind.add.neutral .f32 hφ) (q : Fin 1) :
    multiReduction (F := Ideal) .add [0] S1 src 0x00000000#32 h hφ hacc (ix1 q) = ∑ a : Fin 8, src (ix2 a q) :=
  (Ideal.multiReduction_add_single src 0x00000000#32 h hφ hacc (ix1 q)).trans
    (Finset.sum_congr rfl fun k _ => congrArg src (funext fun ax => Fin.ext (match ax with
      | ⟨0, _⟩ => rfl
      | ⟨1, _⟩ => rfl)))

/-- A vector of 8 recast as an 8 × 1 column reads, at (a, q), the vector at a. -/
theorem castCol8 {α : Type} (x : S8.Idx → α) (h : S8.ShapeCasts S8x1) (a : Fin 8) (q : Fin 1) :
    shapeCast S8x1 x h (ix2 a q) = x (ix1 a) :=
  shapeCast_apply x h _ _ (by
    have hq : q.val = 0 := by omega
    rw [Shape.rowMajor_val_two, Shape.rowMajor_val_one]
    show a.val = a.val * 1 + q.val
    omega)

/-- An 8 × 512 array recast as 8 × 512 × 1 reads, at (a, j, q), the array at (a, j). -/
theorem castKeep {α : Type} (x : S8x512.Idx → α) (h : S8x512.ShapeCasts S8x512x1) (a : Fin 8) (j : Fin 512) (q : Fin 1) :
    shapeCast S8x512x1 x h (ix3 a j q) = x (ix2 a j) :=
  shapeCast_apply x h _ _ (by
    have hq : q.val = 0 := by omega
    rw [Shape.rowMajor_val_three, Shape.rowMajor_val_two]
    show a.val * 512 + j.val = (a.val * 512 + j.val) * 1 + q.val
    omega)

/-- The accumulator's update: what was there plus the sum of the absolute values of the whole 8 × 512 × 512 tile. -/
theorem pay1_apply (v : FVec Ideal S8x512x512 .f32) (prev : Vec Ideal S1x1 .f32) (y : S1x1.Idx) :
    Gen.k1_pay1 (F := Ideal) v prev y
      = prev y + ∑ a : Fin 8, ∑ j : Fin 512, ∑ k : Fin 512, max (v (ix3 a j k)) (-(v (ix3 a j k))) := by
  obtain ⟨p, q, rfl⟩ : ∃ (p : Fin 1) (q : Fin 1), y = ix2 p q := ⟨y 0, y 1, eq_ix2 y⟩
  unfold Gen.k1_pay1
  refine (addf_apply _ _ _).trans ?_
  refine congrArg₂ (· + ·) ?_ ?_
  · exact congrFun (shapeCast_self prev _) _
  · refine (shapeCast_a_1a_apply _ _ p q).trans ?_
    refine (sumCol8 _ _ _ _ q).trans ?_
    refine Finset.sum_congr rfl fun a _ => ?_
    refine (castCol8 _ _ a q).trans ?_
    refine (sumRows512 _ _ _ _ a).trans ?_
    refine Finset.sum_congr rfl fun j _ => ?_
    refine (sumLast512 _ _ _ _ a j).trans ?_
    rfl

/-! ## The difference vectors and the unit vectors of one tile -/

/-- The 512 × 128 embedding as the one slab of a 1 × 512 × 128 array, repeated for each of the 8 centre rows. -/
theorem bcastSlab {α : Type} (v : S1x512x128.Idx → α) (h : S1x512x128.Broadcasts S8x512x128) (a : Fin 8) (j : Fin 512) (d : Fin 128) :
    broadcastTo S8x512x128 v h (ix3 a j d) = v (ix3 (0 : Fin 1) j d) := by
  refine broadcastTo_apply v h (ix3 a j d) (ix3 (0 : Fin 1) j d) fun ax => ?_
  match ax with
  | ⟨0, _⟩ => rfl
  | ⟨1, _⟩ => rfl
  | ⟨2, _⟩ => rfl

/-- The 8 centre rows as an 8 × 1 × 128 array, repeated along the 512 rows. -/
theorem bcastCentre {α : Type} (v : S8x1x128.Idx → α) (h : S8x1x128.Broadcasts S8x512x128) (a : Fin 8) (j : Fin 512) (d : Fin 128) :
    broadcastTo S8x512x128 v h (ix3 a j d) = v (ix3 a (0 : Fin 1) d) := by
  refine broadcastTo_apply v h (ix3 a j d) (ix3 a (0 : Fin 1) d) fun ax => ?_
  match ax with
  | ⟨0, _⟩ => rfl
  | ⟨1, _⟩ => rfl
  | ⟨2, _⟩ => rfl

/-- An 8 × 512 × 1 array of lengths repeated along the 128 columns. -/
theorem bcastLen {α : Type} (v : S8x512x1.Idx → α) (h : S8x512x1.Broadcasts S8x512x128) (a : Fin 8) (j : Fin 512) (d : Fin 128) :
    broadcastTo S8x512x128 v h (ix3 a j d) = v (ix3 a j (0 : Fin 1)) := by
  refine broadcastTo_apply v h (ix3 a j d) (ix3 a j (0 : Fin 1)) fun ax => ?_
  match ax with
  | ⟨0, _⟩ => rfl
  | ⟨1, _⟩ => rfl
  | ⟨2, _⟩ => rfl

/-- An 8 × 128 array recast as 8 × 1 × 128 reads, at (a, u, d), the array at (a, d). -/
theorem castCentre {α : Type} (x : S8x128.Idx → α) (h : S8x128.ShapeCasts S8x1x128) (a : Fin 8) (u : Fin 1) (d : Fin 128) :
    shapeCast S8x1x128 x h (ix3 a u d) = x (ix2 a d) :=
  shapeCast_apply x h _ _ (by
    have hu : u.val = 0 := by omega
    rw [Shape.rowMajor_val_three, Shape.rowMajor_val_two]
    show a.val * 128 + d.val = (a.val * 1 + u.val) * 128 + d.val
    rw [hu, Nat.mul_one, Nat.add_zero])

/-- The differences of all rows of an embedding from each of the 8 centre rows, as the kernel forms them. -/
def diffV (x : Vec Ideal S512x128 .f32) (c : Vec Ideal S8x128 .f32) : FVec Ideal S8x512x128 .f32 :=
  subf
    (broadcastTo S8x512x128 (shapeCast S1x512x128 (shapeCast S512x128 x shapeCasts_S512x128_S512x128) shapeCasts_S512x128_S1x512x128)
      broadcasts_S1x512x128_S8x512x128)
    (broadcastTo S8x512x128 (shapeCast S8x1x128 (shapeCast S8x128 c shapeCasts_S8x128_S8x128) shapeCasts_S8x128_S8x1x128)
      broadcasts_S8x1x128_S8x512x128)

theorem diffV_apply (x : Vec Ideal S512x128 .f32) (c : Vec Ideal S8x128 .f32) (a : Fin 8) (j : Fin 512) (d : Fin 128) :
    diffV x c (ix3 a j d) = x (ix2 j d) - c (ix2 a d) := by
  unfold diffV
  refine (subf_apply _ _ _).trans ?_
  refine congrArg₂ (· - ·) ?_ ?_
  · refine (bcastSlab _ _ a j d).trans ?_
    refine (shapeCast_ab_1ab_apply _ _ (0 : Fin 1) j d).trans ?_
    exact congrFun (shapeCast_self x _) _
  · refine (bcastCentre _ _ a j d).trans ?_
    refine (castCentre _ _ a (0 : Fin 1) d).trans ?_
    exact congrFun (shapeCast_self c _) _

/-- The lengths of those differences, bounded below by ε, kept as an 8 × 512 × 1 array. -/
def lenV (x : Vec Ideal S512x128 .f32) (c : Vec Ideal S8x128 .f32) : FVec Ideal S8x512x1 .f32 :=
  maximumf
    (sqrt (shapeCast S8x512x1
      (multiReduction (F := Ideal) .add [2] S8x512 (mulf (diffV x c) (diffV x c)) 0x00000000#32 reduces_S8x512x128_S8x512 (.inl rfl) rfl)
      shapeCasts_S8x512_S8x512x1))
    (broadcast S8x512x1 (Scalar.ofBits .f32 0x2B8CBCCC#32))

theorem lenV_apply (x : Vec Ideal S512x128 .f32) (c : Vec Ideal S8x128 .f32) (a : Fin 8) (j : Fin 512) (q : Fin 1) :
    lenV x c (ix3 a j q)
      = max (Ideal.sqrt (∑ d : Fin 128, (x (ix2 j d) - c (ix2 a d)) * (x (ix2 j d) - c (ix2 a d)))) (Ideal.ofBits .f32 0x2B8CBCCC#32) := by
  unfold lenV
  refine (maximumf_apply _ _ _).trans ?_
  refine congrArg₂ max ?_ rfl
  show Ideal.sqrt _ = _
  refine congrArg Ideal.sqrt ?_
  refine (castKeep _ _ a j q).trans ?_
  refine (sumLast128 _ _ _ _ a j).trans ?_
  refine Finset.sum_congr rfl fun d _ => ?_
  refine (mulf_apply _ _ _).trans ?_
  rw [diffV_apply]

/-- The unit vectors, in the narrow float format the kernel hands to the matrix product (no rounding over the extended reals). -/
def unitV (x : Vec Ideal S512x128 .f32) (c : Vec Ideal S8x128 .f32) : FVec Ideal S8x512x128 .bf16 :=
  truncf .bf16 (divf (diffV x c) (broadcastTo S8x512x128 (lenV x c) broadcasts_S8x512x1_S8x512x128)) bitsLt_bf16_f32

theorem unitV_apply (x : Vec Ideal S512x128 .f32) (c : Vec Ideal S8x128 .f32) (a : Fin 8) (j : Fin 512) (d : Fin 128) :
    unitV x c (ix3 a j d)
      = Ideal.div (x (ix2 j d) - c (ix2 a d))
          (max (Ideal.sqrt (∑ e : Fin 128, (x (ix2 j e) - c (ix2 a e)) * (x (ix2 j e) - c (ix2 a e)))) (Ideal.ofBits .f32 0x2B8CBCCC#32)) := by
  unfold unitV
  show Ideal.div (diffV x c (ix3 a j d)) (broadcastTo S8x512x128 (lenV x c) broadcasts_S8x512x1_S8x512x128 (ix3 a j d)) = _
  refine congrArg₂ Ideal.div (diffV_apply x c a j d) ?_
  refine (bcastLen _ _ a j d).trans ?_
  exact lenV_apply x c a j (0 : Fin 1)

/-- The tile's payload is the difference of the two embeddings' tables of inner products of unit vectors. -/
theorem pay4_eq (sF tF : Vec Ideal S512x128 .f32) (sC tC : Vec Ideal S8x128 .f32) :
    Gen.k1_pay4 (F := Ideal) sF tF sC tC
      = subf
          (matmul dot_S8x512x128_S8x512x128_S8x512x512_2_2_1_1_0_0 none (unitV sF sC) (unitV sF sC) (constant (F := Ideal) S8x512x512 .f32 0x00000000#32))
          (matmul dot_S8x512x128_S8x512x128_S8x512x512_2_2_1_1_0_0 none (unitV tF tC) (unitV tF tC) (constant (F := Ideal) S8x512x512 .f32 0x00000000#32)) := rfl

/-! ## The batched product: for each centre row, the table of inner products of its unit vectors -/

/-- The product's dimension numbers: batch axis 0, kept axis 1 of each operand, contracted axis 2 of each. -/
abbrev gramDims : DotDims S8x512x128 S8x512x128 S8x512x512 := dot_S8x512x128_S8x512x128_S8x512x512_2_2_1_1_0_0

theorem gram_lhs0 (i : S8x512x512.Idx) (q : gramDims.contr.Idx) : (gramDims.lhsIdx i q 0).val = (i 0).val := by
  unfold DotDims.lhsIdx
  rw [dif_pos (show (0 : Fin S8x512x128.rank) ∈ gramDims.lhsBatch by decide)]
  rfl
theorem gram_lhs1 (i : S8x512x512.Idx) (q : gramDims.contr.Idx) : (gramDims.lhsIdx i q 1).val = (i 1).val := by
  unfold DotDims.lhsIdx
  rw [dif_neg (show ¬(1 : Fin S8x512x128.rank) ∈ gramDims.lhsBatch by decide),
    dif_pos (show (1 : Fin S8x512x128.rank) ∈ gramDims.lhsNonContracting by decide)]
  rfl
theorem gram_lhs2 (i : S8x512x512.Idx) (q : gramDims.contr.Idx) : (gramDims.lhsIdx i q 2).val = (q ⟨0, by decide⟩).val :=
  gramDims.lhsIdx_val_of_single rfl i q
theorem gram_rhs0 (i : S8x512x512.Idx) (q : gramDims.contr.Idx) : (gramDims.rhsIdx i q 0).val = (i 0).val := by
  unfold DotDims.rhsIdx
  rw [dif_pos (show (0 : Fin S8x512x128.rank) ∈ gramDims.rhsBatch by decide)]
  rfl
theorem gram_rhs1 (i : S8x512x512.Idx) (q : gramDims.contr.Idx) : (gramDims.rhsIdx i q 1).val = (i 2).val := by
  unfold DotDims.rhsIdx
  rw [dif_neg (show ¬(1 : Fin S8x512x128.rank) ∈ gramDims.rhsBatch by decide),
    dif_pos (show (1 : Fin S8x512x128.rank) ∈ gramDims.rhsNonContracting by decide)]
  rfl
theorem gram_rhs2 (i : S8x512x512.Idx) (q : gramDims.contr.Idx) : (gramDims.rhsIdx i q 2).val = (q ⟨0, by decide⟩).val :=
  gramDims.rhsIdx_val_of_single rfl i q

/-- The batched product of an 8 × 512 × 128 array with itself, from a zero accumulator, at (a, j, k): the inner product of
    rows j and k of slab a. -/
theorem gram_apply (u : FVec Ideal S8x512x128 .bf16) (a : Fin 8) (j k : Fin 512) :
    matmul gramDims none u u (constant (F := Ideal) S8x512x512 .f32 0x00000000#32) (ix3 a j k)
      = ∑ d : Fin 128, u (ix3 a j d) * u (ix3 a k d) := by
  refine (Ideal.matmul_constant_zero_apply gramDims none u u (ix3 a j k)).trans ?_
  rw [← Equiv.sum_comp (contrEquiv1 gramDims 128 rfl rfl).symm]
  refine Finset.sum_congr rfl fun d _ => ?_
  have hk := contrEquiv1_symm_val gramDims 128 rfl rfl d
  have el : gramDims.lhsIdx (ix3 a j k) ((contrEquiv1 gramDims 128 rfl rfl).symm d) = ix3 a j d := funext fun ax => Fin.ext (by
    match ax with
    | ⟨0, _⟩ => exact gram_lhs0 _ _
    | ⟨1, _⟩ => exact gram_lhs1 _ _
    | ⟨2, _⟩ => exact (gram_lhs2 _ _).trans hk)
  have er : gramDims.rhsIdx (ix3 a j k) ((contrEquiv1 gramDims 128 rfl rfl).symm d) = ix3 a k d := funext fun ax => Fin.ext (by
    match ax with
    | ⟨0, _⟩ => exact gram_rhs0 _ _
    | ⟨1, _⟩ => exact gram_rhs1 _ _
    | ⟨2, _⟩ => exact (gram_rhs2 _ _).trans hk)
  rw [el, er]

/-! ## The tile's payload against the angles of the loss -/

/-- The centre rows of tile n are rows 8 n … 8 n + 7 of the embedding (no wrap-around: 8 n + a < 512). -/
theorem rows_apply (x : Vec Ideal S512x128 .f32) (n : Fin 64) (a : Fin 8) (d : Fin 128) :
    rows x n.val (ix2 a d) = x (ix2 (Cert.AngleLoss.rowOf n a) d) := by
  unfold rows
  refine congrArg x (congrArg (fun r => ix2 r d) (Fin.ext ?_))
  show (8 * n.val + a.val) % 512 = 8 * n.val + a.val
  omega

/-- The kernel's unit vector from centre row a of tile n towards row j is the loss's. -/
theorem unit_eq (x : Vec Ideal S512x128 .f32) (n : Fin 64) (a : Fin 8) (j : Fin 512) (d : Fin 128) :
    unitV x (rows x n.val) (ix3 a j d) = Cert.AngleLoss.unit x (Cert.AngleLoss.rowOf n a) j d := by
  rw [unitV_apply]
  unfold Cert.AngleLoss.unit Cert.AngleLoss.len Cert.AngleLoss.diff Cert.AngleLoss.eps
  simp only [rows_apply]

/-- One entry of the kernel's table of inner products is the loss's angle. -/
theorem angle_eq (x : Vec Ideal S512x128 .f32) (n : Fin 64) (a : Fin 8) (j k : Fin 512) :
    matmul gramDims none (unitV x (rows x n.val)) (unitV x (rows x n.val)) (constant (F := Ideal) S8x512x512 .f32 0x00000000#32) (ix3 a j k)
      = Cert.AngleLoss.angle x (Cert.AngleLoss.rowOf n a) j k := by
  refine (gram_apply _ a j k).trans ?_
  unfold Cert.AngleLoss.angle
  refine Finset.sum_congr rfl fun d _ => ?_
  rw [unit_eq, unit_eq]

/-- The tile's payload at (a, j, k): the student's angle at centre row 8 n + a between rows j and k, minus the teacher's. -/
theorem pay4_apply (s t : Vec Ideal S512x128 .f32) (n : Fin 64) (a : Fin 8) (j k : Fin 512) :
    Gen.k1_pay4 (F := Ideal) s t (rows s n.val) (rows t n.val) (ix3 a j k)
      = Cert.AngleLoss.angle s (Cert.AngleLoss.rowOf n a) j k - Cert.AngleLoss.angle t (Cert.AngleLoss.rowOf n a) j k := by
  rw [pay4_eq]
  refine (subf_apply _ _ _).trans ?_
  exact congrArg₂ (· - ·) (angle_eq s n a j k) (angle_eq t n a j k)

/-! ## The accumulator cell, point by point -/

/-- The zero cell. -/
theorem pay3_apply (y : S1x1.Idx) : Gen.k1_pay3 (F := Ideal) y = 0 := Ideal.ofBits_zero_f32

/-- The last point's division by the number of triples. -/
theorem pay2_apply (v : Vec Ideal S1x1 .f32) (y : S1x1.Idx) :
    Gen.k1_pay2 (F := Ideal) v y = Ideal.div (v y) Cert.AngleLoss.count := by
  unfold Gen.k1_pay2
  refine (divf_apply _ _ _).trans ?_
  exact congrArg₂ Ideal.div (congrFun (shapeCast_self v _) _) rfl

/-- One point's update of the cell: the sum of the gaps of tile p is added. -/
theorem tile_step (s t : Vec Ideal S512x128 .f32) (p : Fin 64) (prev : Vec Ideal S1x1 .f32) (y : S1x1.Idx) :
    Gen.k1_pay1 (F := Ideal) (Gen.k1_pay4 (F := Ideal) s t (rows s p.val) (rows t p.val)) prev y
      = prev y + Cert.AngleLoss.tileSum s t p := by
  rw [pay1_apply]
  refine congrArg (prev y + ·) ?_
  unfold Cert.AngleLoss.tileSum Cert.AngleLoss.gap
  simp only [pay4_apply]

/-- The sum of the gaps of tile p for a natural number p: zero beyond the 64 tiles. -/
def tileN (s t : Vec Ideal S512x128 .f32) (p : Nat) : EReal :=
  if h : p < 64 then Cert.AngleLoss.tileSum s t ⟨p, h⟩ else 0

theorem tileN_of_lt (s t : Vec Ideal S512x128 .f32) (p : Nat) (h : p < 64) :
    tileN s t p = Cert.AngleLoss.tileSum s t ⟨p, h⟩ := dif_pos h

/-- Before the last point the cell holds the sum over the tiles visited so far. -/
theorem cellAt_partial (s t : Vec Ideal S512x128 .f32) (n : Nat) (hn : n < 63) (y : S1x1.Idx) :
    cellAt (F := Ideal) s t (rows s) (rows t) n y = ∑ p ∈ Finset.range (n + 1), tileN s t p := by
  induction n with
  | zero =>
    rw [Finset.sum_range_one, tileN_of_lt s t 0 (by decide)]
    show Gen.k1_pay1 (F := Ideal) (Gen.k1_pay4 (F := Ideal) s t (rows s 0) (rows t 0)) (Gen.k1_pay3 (F := Ideal)) y = _
    refine (tile_step s t (⟨0, by decide⟩ : Fin 64) _ y).trans ?_
    rw [pay3_apply, zero_add]
  | succ m ih =>
    have hm : m < 63 := by omega
    have hne : ¬ (m + 1 = 63) := by omega
    rw [Finset.sum_range_succ, ← ih hm, tileN_of_lt s t (m + 1) (by omega)]
    show (if m + 1 = 63 then cellLast s t (rows s (m + 1)) (rows t (m + 1)) (cellAt s t (rows s) (rows t) m)
      else cellMid s t (rows s (m + 1)) (rows t (m + 1)) (cellAt s t (rows s) (rows t) m)) y = _
    rw [if_neg hne]
    exact tile_step s t (⟨m + 1, by omega⟩ : Fin 64) _ y

/-- After the last point the cell holds the mean gap: the sum over all 64 tiles divided by the number of triples. -/
theorem cellAt_last (s t : Vec Ideal S512x128 .f32) :
    cellAt (F := Ideal) s t (rows s) (rows t) 63
      = fun _ => Ideal.div (∑ p : Fin 64, Cert.AngleLoss.tileSum s t p) Cert.AngleLoss.count := by
  funext y
  show (if 62 + 1 = 63 then cellLast s t (rows s (62 + 1)) (rows t (62 + 1)) (cellAt s t (rows s) (rows t) 62)
    else cellMid s t (rows s (62 + 1)) (rows t (62 + 1)) (cellAt s t (rows s) (rows t) 62)) y = _
  rw [if_pos rfl]
  unfold cellLast
  rw [pay2_apply]
  refine congrArg (Ideal.div · Cert.AngleLoss.count) ?_
  refine (tile_step s t (⟨63, by decide⟩ : Fin 64) _ y).trans ?_
  rw [cellAt_partial s t 62 (by decide) y, ← tileN_of_lt s t 63 (by decide), ← Finset.sum_range_succ,
    Finset.sum_range (fun p => tileN s t p)]
  exact Finset.sum_congr rfl fun p _ => tileN_of_lt s t p.val p.isLt

/-! ## The 64 tiles together are all 512 centre rows -/

/-- The 64 tiles of 8 rows cover the 512 rows once each: a sum tile by tile is the sum over all rows. -/
theorem sum_tiles {M : Type} [AddCommMonoid M] (f : Fin 512 → M) :
    ∑ p : Fin 64, ∑ a : Fin 8, f (Cert.AngleLoss.rowOf p a) = ∑ i : Fin 512, f i := by
  rw [← Fintype.sum_prod_type']
  exact Fintype.sum_equiv (finProdFinEquiv (m := 64) (n := 8)) _ _ (fun x => congrArg f (Fin.ext (by
    show 8 * x.1.val + x.2.val = x.2.val + 8 * x.1.val
    omega)))

/-- The tile sums add up to the sum of the gaps over all triples. -/
theorem tiles_total (s t : Vec Ideal S512x128 .f32) :
    ∑ p : Fin 64, Cert.AngleLoss.tileSum s t p = Cert.AngleLoss.total s t := by
  unfold Cert.AngleLoss.tileSum Cert.AngleLoss.total
  exact sum_tiles (fun i => ∑ j : Fin 512, ∑ k : Fin 512, Cert.AngleLoss.gap s t i j k)

/-- After the last point the cell holds the loss. -/
theorem cellAt_last_loss (s t : Vec Ideal S512x128 .f32) :
    cellAt (F := Ideal) s t (rows s) (rows t) 63 = fun _ => Cert.AngleLoss.loss s t := by
  rw [cellAt_last, tiles_total]
  rfl

end Cert.KernelIdeal.HandValue

end
-- ==== Proof.Tail.lean ====
/-
  The last host operation of the kernel program: a 1 × 1 array reshaped to a scalar.

  Both shapes have exactly one element, so both row-major positions are 0 and the scalar is the array's one
  entry, the one at (0, 0).
-/
import proofs.«181465_j86723979641277_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.ShloMosaic.ValueIdx
open Idealize.SL.Sem Idealize.ShloMosaic.StableHlo

/-- After the reshape, from any contents, the scalar result holds entry (0, 0) of the 1 × 1 array. -/
theorem tail_value (Wv : Valuation τ sig (Elt Ideal)) :
    StableHlo.after (hostOps2 (F := Ideal)) Wv (Proc.devRef .tc main_v2)
      = fun _ => (Wv (Proc.devRef .tc main_v1) : S1x1.Idx → EReal) (ix2 0 0) := by
  after_results
  funext i
  refine shapeCast_apply _ _ i (ix2 0 0) ?_
  show (S1x1.rowMajor (ix2 0 0)).val = (S_.rowMajor i).val
  have a := (S1x1.rowMajor (ix2 0 0)).isLt
  have b := (S_.rowMajor i).isLt
  have e1 : S1x1.numel = 1 := by decide
  have e2 : S_.numel = 1 := by decide
  omega

end Cert.KernelIdeal.HandValue

end
-- ==== Proof.KernelValue.lean ====
/-
  The idealized kernel program returns the loss of its six argument arrays.

  The first region leaves the two embeddings s = student · W1 + b1 and t = teacher · W2 + b2 in its two output
  arrays. The second region's windows read them: at point n the whole of each and its rows 8 n … 8 n + 7. So the
  one-cell output after point n is the pure recursion of the cell over s and t: it ends, after point 63, at the sum
  over all 64 tiles of the gaps divided by the count, which is the loss of s and t — a sum over 512 centre rows
  taken tile by tile. The region writes the cell back once, after the last point, and the host's reshape reads the
  1 × 1 array's one entry out as the scalar result.
-/
import proofs.«181465_j86723979641277_2_alg».proof.Proof.RunAll
import proofs.«181465_j86723979641277_2_alg».proof.Proof.Reg0Value
import proofs.«181465_j86723979641277_2_alg».proof.Proof.Reg1Blocks
import proofs.«181465_j86723979641277_2_alg».proof.Proof.CellPieces
import proofs.«181465_j86723979641277_2_alg».proof.Proof.CellValue
import proofs.«181465_j86723979641277_2_alg».proof.Proof.Tail
import proofs.«181465_j86723979641277_2_alg».proof.Proof.Spec

set_option maxRecDepth 16384

noncomputable section

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.Hand

section AnyInstance

variable {F : FTy → Type} [FloatOps F]
variable (V : (c : Dev nD) → (b : Ref sig .tc) → Buf (Elt F) ((c : Thread nD τ).loc b))

/-- The cell after each point is the pure recursion over the two embeddings' arrays and their centre rows: at every
    point the windows' blocks are the whole arrays and the tile's rows, and each kind of point leaves the pure cell
    function of them. -/
theorem cellOut_eq (c : Dev nD) : ∀ (n : ℕ) (hn : n < cfg1.N),
    cellOut V c n hn = cellAt (V c main_v0_0) (V c main_v0_1) (rows (V c main_v0_0)) (rows (V c main_v0_1)) n
  | 0, hn => by
    refine ((cellOut_first V c ⟨0, hn⟩ rfl).trans (cellOutFirst_eq ..)).trans ?_
    exact congr (congr (congr (congrArg (cellFirst (F := F)) (blk1_0_eq V c ⟨0, hn⟩)) (blk1_2_eq V c ⟨0, hn⟩))
      (blk1_1_eq V c ⟨0, hn⟩)) (blk1_3_eq V c ⟨0, hn⟩)
  | n + 1, hn => by
    have ih := cellOut_eq c n (Nat.lt_of_succ_lt hn)
    have hN : n + 1 < 64 := lt64 hn
    by_cases h1 : (n + 1) % 64 = 63
    · have e : n + 1 = 63 := by omega
      refine ((cellOut_last V c ⟨n + 1, hn⟩ h1).trans (cellOutLast_eq ..)).trans ?_
      refine Eq.trans ?_ (show cellLast (V c main_v0_0) (V c main_v0_1) (rows (V c main_v0_0) (n + 1)) (rows (V c main_v0_1) (n + 1))
          (cellAt (V c main_v0_0) (V c main_v0_1) (rows (V c main_v0_0)) (rows (V c main_v0_1)) n)
        = cellAt (V c main_v0_0) (V c main_v0_1) (rows (V c main_v0_0)) (rows (V c main_v0_1)) (n + 1) from by
          show _ = (if n + 1 = 63 then _ else _); rw [if_pos e])
      exact congr (congr (congr (congr (congrArg (cellLast (F := F)) (blk1_0_eq V c ⟨n + 1, hn⟩)) (blk1_2_eq V c ⟨n + 1, hn⟩))
        (blk1_1_eq V c ⟨n + 1, hn⟩)) (blk1_3_eq V c ⟨n + 1, hn⟩)) ih
    · have e : ¬ n + 1 = 63 := by omega
      have h0 : ¬ (n + 1) % 64 = 0 := by omega
      refine ((cellOut_mid V c ⟨n + 1, hn⟩ h0 h1).trans (cellOutMid_eq ..)).trans ?_
      refine Eq.trans ?_ (show cellMid (V c main_v0_0) (V c main_v0_1) (rows (V c main_v0_0) (n + 1)) (rows (V c main_v0_1) (n + 1))
          (cellAt (V c main_v0_0) (V c main_v0_1) (rows (V c main_v0_0)) (rows (V c main_v0_1)) n)
        = cellAt (V c main_v0_0) (V c main_v0_1) (rows (V c main_v0_0)) (rows (V c main_v0_1)) (n + 1) from by
          show _ = (if n + 1 = 63 then _ else _); rw [if_neg e])
      exact congr (congr (congr (congr (congrArg (cellMid (F := F)) (blk1_0_eq V c ⟨n + 1, hn⟩)) (blk1_2_eq V c ⟨n + 1, hn⟩))
        (blk1_1_eq V c ⟨n + 1, hn⟩)) (blk1_3_eq V c ⟨n + 1, hn⟩)) ih

end AnyInstance

variable (m : (ℓ : Loc nD τ sig) → Buf (Elt Ideal) ℓ) (ρ : Dev nD → PrngReg)

/-- After the first region the first output array holds the first embedding of the launch contents. -/
theorem first_embedding (c : Dev nD) :
    V1 m ρ c main_v0_0 = Cert.AngleLoss.embed (m ((c : Thread nD τ).loc main_arg0)) (m ((c : Thread nD τ).loc main_arg2)) (m ((c : Thread nD τ).loc main_arg3)) :=
  (W1_arr m ρ c 6).trans (arrAt0_6 (V0 m ρ) c)

/-- And the second output array the second embedding. -/
theorem second_embedding (c : Dev nD) :
    V1 m ρ c main_v0_1 = Cert.AngleLoss.embed (m ((c : Thread nD τ).loc main_arg1)) (m ((c : Thread nD τ).loc main_arg4)) (m ((c : Thread nD τ).loc main_arg5)) :=
  (W1_arr m ρ c 7).trans (arrAt0_7 (V0 m ρ) c)

/-- The result buffer at the last boundary holds the loss of the six argument arrays. -/
theorem result_eq (c : Dev nD) :
    W3 m ρ c (Proc.devRef .tc main_v2)
      = Cert.AngleLoss.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (tail_value (W2 m ρ c)).trans ?_
  funext _
  rw [W2_cell, arrAt1_4, cellOut_eq, cellAt_last_loss, first_embedding, second_embedding]
  rfl

/-- THE KERNEL'S RUN WITH ITS VALUE: every weakly fair execution terminates, the result is the loss of the launch
    contents of the six arguments, and the arguments end as launched. -/
theorem kernel_run : θ_run defs (onTc (τ := τ) (main (F := Ideal))) ⟨m, fun _ => 0, ρ⟩ (fun r => ∀ c : Dev nD,
      r.2.mem ((c.tc : Thread nD τ).loc main_v2)
        = Cert.AngleLoss.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v2 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

end Cert.KernelIdeal.HandValue

end
-- ==== Proof.RefSpec.lean ====
/-
  The reference program's result is the angle-wise loss of the specification.

  The program is read one stage at a time, each stage at explicit coordinates. The two matrix products with their
  broadcast biases are the embeddings, entry by entry. For one embedding x: the two broadcasts to three axes read
  x at (j, d) and at (i, d), so their difference is the difference vector of rows j and i; the sum of its squares
  over d starts from the zero word, which adds nothing; the square root, bounded below by the ε word, is the length;
  the quotient is the unit vector; the batched product over d is the angle at (i, j, k). The flattening to one axis
  reads the angle at the quotient and remainders of the flat position by 512² and 512, and these run through every
  triple exactly once, so the sum over the flat axis is the triple sum over i, j, k.
-/
import proofs.«181465_j86723979641277_2_alg».proof.Proof.Gen.ReferenceIdeal.Read
import proofs.«181465_j86723979641277_2_alg».proof.Proof.Spec
import Mathlib.Algebra.BigOperators.Fin
import Mathlib.Data.Fintype.BigOperators

noncomputable section

open scoped BigOperators

namespace Cert.ReferenceIdeal.RefValue

open Cert.ReferenceIdeal Cert.ReferenceIdeal.Gen Cert.ReferenceIdeal.Read Idealize.ShloMosaic Idealize.ShloMosaic.ValueIdx
open Cert.AngleLoss

/-- A 512 × 512 argument array. -/
abbrev TMat : Type := (⟨S512x512, .f32⟩ : BufTy).Contents (Elt Ideal)
/-- A 512 × 128 argument array. -/
abbrev TEmb : Type := (⟨S512x128, .f32⟩ : BufTy).Contents (Elt Ideal)
/-- A 128 argument vector. -/
abbrev TBias : Type := (⟨S128, .f32⟩ : BufTy).Contents (Elt Ideal)

/-! ## The two embeddings -/

/-- Entry (n, e) of the first matrix product plus its bias row is the specification's embedding entry. -/
theorem emb_first_at (a0 : TMat) (a2 : TEmb) (a3 : TBias) (n : Fin 512) (e : Fin 128) :
    val_main_v3 (F := Ideal) a0 a2 a3 (ix2 n e) = embedAt a0 a2 a3 n e := by
  have el : ∀ k : Fin 512, lidx_main_v0 (ix2 n e) k = ix2 n k := fun k =>
    funext fun a => Fin.ext (by match a with | ⟨0, _⟩ => rfl | ⟨1, _⟩ => rfl)
  have er : ∀ k : Fin 512, ridx_main_v0 (ix2 n e) k = ix2 k e := fun k =>
    funext fun a => Fin.ext (by match a with | ⟨0, _⟩ => rfl | ⟨1, _⟩ => rfl)
  have eb : idx_main_v1 (idx_main_v2 (ix2 n e)) = ix1 e :=
    funext fun a => Fin.ext (by match a with | ⟨0, _⟩ => rfl)
  rw [val_main_v3_apply, val_main_v0_apply, val_main_v2_apply, val_main_v1_apply, eb]
  simp only [el, er]
  rfl

/-- The first embedding stage is the specification's embedding, as arrays. -/
theorem emb_first (a0 : TMat) (a2 : TEmb) (a3 : TBias) :
    val_main_v3 (F := Ideal) a0 a2 a3 = embed a0 a2 a3 := by
  funext j
  obtain ⟨n, e, rfl⟩ : ∃ (n : Fin 512) (e : Fin 128), j = ix2 n e := ⟨j 0, j 1, eq_ix2 j⟩
  exact emb_first_at a0 a2 a3 n e

/-- Entry (n, e) of the second matrix product plus its bias row is the specification's embedding entry. -/
theorem emb_second_at (a1 : TMat) (a4 : TEmb) (a5 : TBias) (n : Fin 512) (e : Fin 128) :
    val_main_v7 (F := Ideal) a1 a4 a5 (ix2 n e) = embedAt a1 a4 a5 n e := by
  have el : ∀ k : Fin 512, lidx_main_v4 (ix2 n e) k = ix2 n k := fun k =>
    funext fun a => Fin.ext (by match a with | ⟨0, _⟩ => rfl | ⟨1, _⟩ => rfl)
  have er : ∀ k : Fin 512, ridx_main_v4 (ix2 n e) k = ix2 k e := fun k =>
    funext fun a => Fin.ext (by match a with | ⟨0, _⟩ => rfl | ⟨1, _⟩ => rfl)
  have eb : idx_main_v5 (idx_main_v6 (ix2 n e)) = ix1 e :=
    funext fun a => Fin.ext (by match a with | ⟨0, _⟩ => rfl)
  rw [val_main_v7_apply, val_main_v4_apply, val_main_v6_apply, val_main_v5_apply, eb]
  simp only [el, er]
  rfl

/-- The second embedding stage is the specification's embedding, as arrays. -/
theorem emb_second (a1 : TMat) (a4 : TEmb) (a5 : TBias) :
    val_main_v7 (F := Ideal) a1 a4 a5 = embed a1 a4 a5 := by
  funext j
  obtain ⟨n, e, rfl⟩ : ∃ (n : Fin 512) (e : Fin 128), j = ix2 n e := ⟨j 0, j 1, eq_ix2 j⟩
  exact emb_second_at a1 a4 a5 n e

/-! ## The row-major position of a triple -/

/-- The triple (i, j, k) a flat position n = 512² i + 512 j + k is the row-major position of. -/
def tripleOf (n : Fin 134217728) : Fin 512 × Fin 512 × Fin 512 :=
  (⟨n.val / 262144, by omega⟩, ⟨n.val / 512 % 512, by omega⟩, ⟨n.val % 512, by omega⟩)

/-- Flat positions against triples: a bijection. -/
def tripleEquiv : Fin 134217728 ≃ Fin 512 × Fin 512 × Fin 512 where
  toFun := tripleOf
  invFun x := ⟨262144 * x.1.val + 512 * x.2.1.val + x.2.2.val, by omega⟩
  left_inv := by
    intro n
    refine Fin.ext ?_
    show 262144 * (n.val / 262144) + 512 * (n.val / 512 % 512) + n.val % 512 = n.val
    omega
  right_inv := by
    rintro ⟨i, j, k⟩
    refine Prod.ext (Fin.ext ?_) (Prod.ext (Fin.ext ?_) (Fin.ext ?_))
    · show (262144 * i.val + 512 * j.val + k.val) / 262144 = i.val
      omega
    · show (262144 * i.val + 512 * j.val + k.val) / 512 % 512 = j.val
      omega
    · show (262144 * i.val + 512 * j.val + k.val) % 512 = k.val
      omega

/-- A sum over the flat axis of a function of the triple is the triple sum. -/
theorem sum_flat {M : Type*} [AddCommMonoid M] (g : Fin 512 → Fin 512 → Fin 512 → M) :
    ∑ j : S134217728.Idx, g (tripleOf (j 0)).1 (tripleOf (j 0)).2.1 (tripleOf (j 0)).2.2
      = ∑ i : Fin 512, ∑ j : Fin 512, ∑ k : Fin 512, g i j k := by
  let one : S134217728.Idx ≃ Fin 134217728 :=
    { toFun := fun j => j 0, invFun := fun n => ix1 n, left_inv := fun j => (eq_ix1 j).symm, right_inv := fun _ => rfl }
  rw [← Equiv.sum_comp (one.trans tripleEquiv).symm, Fintype.sum_prod_type]
  refine Finset.sum_congr rfl fun i _ => ?_
  rw [Fintype.sum_prod_type]
  refine Finset.sum_congr rfl fun j _ => Finset.sum_congr rfl fun k _ => ?_
  have h : tripleOf (((one.trans tripleEquiv).symm (i, j, k)) 0) = (i, j, k) := tripleEquiv.right_inv (i, j, k)
  rw [h]

/-! ## The first embedding's angles -/

/-- The difference stage at (i, j, d) is column d of the difference of rows j and i of the first embedding. -/
theorem diff_first (a0 : TMat) (a2 : TEmb) (a3 : TBias) (i j : Fin 512) (d : Fin 128) :
    val_main_v12 (F := Ideal) a0 a2 a3 (ix3 i j d) = diff (val_main_v3 (F := Ideal) a0 a2 a3) i j d := by
  have e1 : idx_main_v8 (idx_main_v10 (ix3 i j d)) = ix2 j d :=
    funext fun a => Fin.ext (by match a with | ⟨0, _⟩ => rfl | ⟨1, _⟩ => rfl)
  have e2 : idx_main_v9 (idx_main_v11 (ix3 i j d)) = ix2 i d :=
    funext fun a => Fin.ext (by match a with | ⟨0, _⟩ => rfl | ⟨1, _⟩ => rfl)
  rw [val_main_v12_apply, val_main_v10_apply, val_main_v8_apply, val_main_v11_apply, val_main_v9_apply, e1, e2]
  rfl

/-- The sum of squares at (i, j): the zero word the sum starts from adds nothing. -/
theorem sq_first (a0 : TMat) (a2 : TEmb) (a3 : TBias) (i j : Fin 512) :
    val_main_v14 (F := Ideal) a0 a2 a3 (ix2 i j)
      = ∑ d : Fin 128, diff (val_main_v3 (F := Ideal) a0 a2 a3) i j d * diff (val_main_v3 (F := Ideal) a0 a2 a3) i j d := by
  have e : ∀ d : Fin 128, idx_main_v14 (ix2 i j) d = ix3 i j d := fun d =>
    funext fun a => Fin.ext (by match a with | ⟨0, _⟩ => rfl | ⟨1, _⟩ => rfl | ⟨2, _⟩ => rfl)
  rw [val_main_v14_apply, val_main_cst_apply, Ideal.ofBits_def, Ideal.ofBits_zero_f32, zero_add]
  refine Finset.sum_congr rfl fun d _ => ?_
  rw [val_main_v13_apply, e d, diff_first]
  rfl

/-- The bounded length at (i, j), on the unit third axis. -/
theorem len_first (a0 : TMat) (a2 : TEmb) (a3 : TBias) (i j : Fin 512) (z : Fin 1) :
    val_main_v18 (F := Ideal) a0 a2 a3 (ix3 i j z) = len (val_main_v3 (F := Ideal) a0 a2 a3) i j := by
  have e : idx_main_v15 (ix3 i j z) = ix2 i j :=
    funext fun a => Fin.ext (by match a with | ⟨0, _⟩ => rfl | ⟨1, _⟩ => rfl)
  rw [val_main_v18_apply, val_main_v16_apply, val_main_v15_apply, val_main_v17_apply, val_main_cst_0_apply, e, sq_first]
  rfl

/-- The unit vector at (i, j, d). -/
theorem unit_first (a0 : TMat) (a2 : TEmb) (a3 : TBias) (i j : Fin 512) (d : Fin 128) :
    val_main_v20 (F := Ideal) a0 a2 a3 (ix3 i j d) = unit (val_main_v3 (F := Ideal) a0 a2 a3) i j d := by
  have e : idx_main_v19 (ix3 i j d) = ix3 i j (0 : Fin 1) :=
    funext fun a => Fin.ext (by match a with | ⟨0, _⟩ => rfl | ⟨1, _⟩ => rfl | ⟨2, _⟩ => rfl)
  rw [val_main_v20_apply, val_main_v19_apply, diff_first, e, len_first]
  rfl

/-- The batched product at (i, j, k) is the angle at row i between rows j and k. -/
theorem angle_first (a0 : TMat) (a2 : TEmb) (a3 : TBias) (i j k : Fin 512) :
    val_main_v21 (F := Ideal) a0 a2 a3 (ix3 i j k) = angle (val_main_v3 (F := Ideal) a0 a2 a3) i j k := by
  have el : ∀ d : Fin 128, lidx_main_v21 (ix3 i j k) d = ix3 i j d := fun d =>
    funext fun a => Fin.ext (by match a with | ⟨0, _⟩ => rfl | ⟨1, _⟩ => rfl | ⟨2, _⟩ => rfl)
  have er : ∀ d : Fin 128, ridx_main_v21 (ix3 i j k) d = ix3 i k d := fun d =>
    funext fun a => Fin.ext (by match a with | ⟨0, _⟩ => rfl | ⟨1, _⟩ => rfl | ⟨2, _⟩ => rfl)
  rw [val_main_v21_apply]
  refine Finset.sum_congr rfl fun d _ => ?_
  rw [el d, er d, unit_first, unit_first]

/-- The flattened stage at position n is the angle at the triple n is the row-major position of. -/
theorem flat_first (a0 : TMat) (a2 : TEmb) (a3 : TBias) (n : Fin 134217728) :
    val_main_v22 (F := Ideal) a0 a2 a3 (ix1 n) = angle (val_main_v3 (F := Ideal) a0 a2 a3) (tripleOf n).1 (tripleOf n).2.1 (tripleOf n).2.2 := by
  have e : idx_main_v22 (ix1 n) = ix3 (tripleOf n).1 (tripleOf n).2.1 (tripleOf n).2.2 :=
    funext fun a => Fin.ext (by match a with | ⟨0, _⟩ => rfl | ⟨1, _⟩ => rfl | ⟨2, _⟩ => rfl)
  rw [val_main_v22_apply, e, angle_first]

/-! ## The second embedding's angles -/

/-- The difference stage at (i, j, d) is column d of the difference of rows j and i of the second embedding. -/
theorem diff_second (a1 : TMat) (a4 : TEmb) (a5 : TBias) (i j : Fin 512) (d : Fin 128) :
    val_main_v27 (F := Ideal) a1 a4 a5 (ix3 i j d) = diff (val_main_v7 (F := Ideal) a1 a4 a5) i j d := by
  have e1 : idx_main_v23 (idx_main_v25 (ix3 i j d)) = ix2 j d :=
    funext fun a => Fin.ext (by match a with | ⟨0, _⟩ => rfl | ⟨1, _⟩ => rfl)
  have e2 : idx_main_v24 (idx_main_v26 (ix3 i j d)) = ix2 i d :=
    funext fun a => Fin.ext (by match a with | ⟨0, _⟩ => rfl | ⟨1, _⟩ => rfl)
  rw [val_main_v27_apply, val_main_v25_apply, val_main_v23_apply, val_main_v26_apply, val_main_v24_apply, e1, e2]
  rfl

/-- The sum of squares at (i, j): the zero word the sum starts from adds nothing. -/
theorem sq_second (a1 : TMat) (a4 : TEmb) (a5 : TBias) (i j : Fin 512) :
    val_main_v29 (F := Ideal) a1 a4 a5 (ix2 i j)
      = ∑ d : Fin 128, diff (val_main_v7 (F := Ideal) a1 a4 a5) i j d * diff (val_main_v7 (F := Ideal) a1 a4 a5) i j d := by
  have e : ∀ d : Fin 128, idx_main_v29 (ix2 i j) d = ix3 i j d := fun d =>
    funext fun a => Fin.ext (by match a with | ⟨0, _⟩ => rfl | ⟨1, _⟩ => rfl | ⟨2, _⟩ => rfl)
  rw [val_main_v29_apply, val_main_cst_1_apply, Ideal.ofBits_def, Ideal.ofBits_zero_f32, zero_add]
  refine Finset.sum_congr rfl fun d _ => ?_
  rw [val_main_v28_apply, e d, diff_second]
  rfl

/-- The bounded length at (i, j), on the unit third axis. -/
theorem len_second (a1 : TMat) (a4 : TEmb) (a5 : TBias) (i j : Fin 512) (z : Fin 1) :
    val_main_v33 (F := Ideal) a1 a4 a5 (ix3 i j z) = len (val_main_v7 (F := Ideal) a1 a4 a5) i j := by
  have e : idx_main_v30 (ix3 i j z) = ix2 i j :=
    funext fun a => Fin.ext (by match a with | ⟨0, _⟩ => rfl | ⟨1, _⟩ => rfl)
  rw [val_main_v33_apply, val_main_v31_apply, val_main_v30_apply, val_main_v32_apply, val_main_cst_2_apply, e, sq_second]
  rfl

/-- The unit vector at (i, j, d). -/
theorem unit_second (a1 : TMat) (a4 : TEmb) (a5 : TBias) (i j : Fin 512) (d : Fin 128) :
    val_main_v35 (F := Ideal) a1 a4 a5 (ix3 i j d) = unit (val_main_v7 (F := Ideal) a1 a4 a5) i j d := by
  have e : idx_main_v34 (ix3 i j d) = ix3 i j (0 : Fin 1) :=
    funext fun a => Fin.ext (by match a with | ⟨0, _⟩ => rfl | ⟨1, _⟩ => rfl | ⟨2, _⟩ => rfl)
  rw [val_main_v35_apply, val_main_v34_apply, diff_second, e, len_second]
  rfl

/-- The batched product at (i, j, k) is the angle at row i between rows j and k. -/
theorem angle_second (a1 : TMat) (a4 : TEmb) (a5 : TBias) (i j k : Fin 512) :
    val_main_v36 (F := Ideal) a1 a4 a5 (ix3 i j k) = angle (val_main_v7 (F := Ideal) a1 a4 a5) i j k := by
  have el : ∀ d : Fin 128, lidx_main_v36 (ix3 i j k) d = ix3 i j d := fun d =>
    funext fun a => Fin.ext (by match a with | ⟨0, _⟩ => rfl | ⟨1, _⟩ => rfl | ⟨2, _⟩ => rfl)
  have er : ∀ d : Fin 128, ridx_main_v36 (ix3 i j k) d = ix3 i k d := fun d =>
    funext fun a => Fin.ext (by match a with | ⟨0, _⟩ => rfl | ⟨1, _⟩ => rfl | ⟨2, _⟩ => rfl)
  rw [val_main_v36_apply]
  refine Finset.sum_congr rfl fun d _ => ?_
  rw [el d, er d, unit_second, unit_second]

/-- The flattened stage at position n is the angle at the triple n is the row-major position of. -/
theorem flat_second (a1 : TMat) (a4 : TEmb) (a5 : TBias) (n : Fin 134217728) :
    val_main_v37 (F := Ideal) a1 a4 a5 (ix1 n) = angle (val_main_v7 (F := Ideal) a1 a4 a5) (tripleOf n).1 (tripleOf n).2.1 (tripleOf n).2.2 := by
  have e : idx_main_v37 (ix1 n) = ix3 (tripleOf n).1 (tripleOf n).2.1 (tripleOf n).2.2 :=
    funext fun a => Fin.ext (by match a with | ⟨0, _⟩ => rfl | ⟨1, _⟩ => rfl | ⟨2, _⟩ => rfl)
  rw [val_main_v37_apply, e, angle_second]

/-! ## The loss -/

/-- The absolute-difference stage at a flat position is the gap at the triple the position stands for. -/
theorem gap_at (a0 a1 : TMat) (a2 : TEmb) (a3 : TBias) (a4 : TEmb) (a5 : TBias) (j : S134217728.Idx) :
    val_main_v39 (F := Ideal) a0 a1 a2 a3 a4 a5 j
      = gap (val_main_v3 (F := Ideal) a0 a2 a3) (val_main_v7 (F := Ideal) a1 a4 a5)
          (tripleOf (j 0)).1 (tripleOf (j 0)).2.1 (tripleOf (j 0)).2.2 := by
  obtain ⟨n, rfl⟩ : ∃ n : Fin 134217728, j = ix1 n := ⟨j 0, eq_ix1 j⟩
  rw [val_main_v39_apply, val_main_v38_apply, flat_first, flat_second]
  rfl

/-- The sum over the flat axis is the specification's sum of the gaps over all triples. -/
theorem sum_gaps (a0 a1 : TMat) (a2 : TEmb) (a3 : TBias) (a4 : TEmb) (a5 : TBias) :
    ∑ j : S134217728.Idx, val_main_v39 (F := Ideal) a0 a1 a2 a3 a4 a5 j
      = total (embed a0 a2 a3) (embed a1 a4 a5) := by
  refine (Finset.sum_congr rfl fun j _ => gap_at a0 a1 a2 a3 a4 a5 j).trans ?_
  rw [emb_first, emb_second]
  exact sum_flat (fun i j k => gap (embed a0 a2 a3) (embed a1 a4 a5) i j k)

/-- The reference program's result, as a function of the six argument arrays, is the specification's loss. -/
theorem ref_eq_G (a0 a1 : TMat) (a2 : TEmb) (a3 : TBias) (a4 : TEmb) (a5 : TBias) :
    val_main_v41 (F := Ideal) a0 a1 a2 a3 a4 a5 = G a0 a1 a2 a3 a4 a5 := by
  funext i
  rw [val_main_v41_apply, val_main_v40_apply, val_main_cst_3_apply, val_main_cst_4_apply, sum_gaps]
  simp only [Ideal.ofBits_def, Ideal.ofBits_zero_f32, zero_add, Ideal.hostDivf_def]
  rfl

/-- The same, on the term the run of the reference program ends with. -/
theorem res_eq_G (m : (ℓ : Loc nD τ sig) → Buf (Elt Ideal) ℓ) (c : Dev nD) :
    Cert.ReferenceIdeal.Value.res_main_v41 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v41_eq (F := Ideal) m c).trans (ref_eq_G _ _ _ _ _ _)

end Cert.ReferenceIdeal.RefValue

end
-- ==== Proof.RefFrame.lean ====
/-
  The reference program runs, leaves its six arguments as they were, and ends with the specification's loss of them.

  The run of the reference ends with its result at the composed term of the operations and the arguments unchanged;
  that term is the loss of the six argument arrays, so the result is stated as the loss, and dropping the result
  leaves the statement that the arguments are unchanged.
-/
import proofs.«181465_j86723979641277_2_alg».proof.Defs
import proofs.«181465_j86723979641277_2_alg».proof.Proof.Gen.ReferenceIdeal.Run
import proofs.«181465_j86723979641277_2_alg».proof.Proof.Gen.Pre_finite_inputs
import proofs.«181465_j86723979641277_2_alg».proof.Proof.RefSpec

noncomputable section

namespace Cert.Proof.Parts

open Idealize.ShloMosaic Idealize.ShloMosaic.TcCoe Idealize.SL.Sem

/-- The reference program terminates without a fault and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

open Cert.ReferenceIdeal in
/-- The reference program ends with the loss of its six argument arrays, and with the arguments unchanged. -/
theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v41)
          = Cert.AngleLoss.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run Cert.ReferenceIdeal.defs _ _).mono
    (fun _ h c => ⟨(h c).1.trans (Cert.ReferenceIdeal.RefValue.res_eq_G m' c), (h c).2⟩)
    (Cert.ReferenceIdeal.Value.run (F := Ideal) m' ρ')

end Cert.Proof.Parts

end
-- ==== Proof.lean ====
/-
  The angle-wise distillation loss: a two-kernel implementation against its plain reference.

  Both programs embed 512 student and 512 teacher rows into 128 columns (a matrix product plus a bias), and for each
  embedding and every triple of rows (i, j, k) form the cosine of the angle at row i between rows j and k — the
  inner product of the unit vectors from i towards j and towards k, a length bounded below by a small ε. The loss is
  the mean over all 512³ triples of the absolute difference of the two embeddings' cosines.
  The reference computes all triples at once and takes the mean of the flattened array. The kernel program computes
  the embeddings in a first kernel and, in a second, visits the 512 centre rows in 64 tiles of 8: each tile adds the
  sum of its gaps to a one-cell accumulator that is set to zero before the first tile and divided by 512³ = 2²⁷ after
  the last. Over the extended reals a change of float format is the identity, so the kernel's rounding of the unit
  vectors to a narrower format before the inner product changes nothing, and the two results differ only in the
  order and grouping of one sum: a sum over 512 rows taken tile by tile, which a commutative monoid does not see. Both
  sides use the same two float words (ε and the count), which are never evaluated.
  The frames: each program terminates without a fault and leaves its argument arrays unchanged. The kernel program's
  second kernel is handed each embedding through two windows (whole, and the tile's rows); the array's full share is
  divided between them while the kernel runs and made whole again afterwards. The one proof of the run, stated for any
  float instance, serves the word-level program and the idealized one; the idealization rewrote nothing.
-/
import proofs.«181465_j86723979641277_2_alg».proof.Defs
import proofs.«181465_j86723979641277_2_alg».proof.Proof.Gen.Kernel
import proofs.«181465_j86723979641277_2_alg».proof.Proof.Gen.KernelIdeal
import proofs.«181465_j86723979641277_2_alg».proof.Proof.Gen.ReferenceIdeal
import proofs.«181465_j86723979641277_2_alg».proof.Proof.Gen.Pre_finite_inputs
import proofs.«181465_j86723979641277_2_alg».proof.Proof.Gen.ReferenceIdeal.Read
import proofs.«181465_j86723979641277_2_alg».proof.Proof.KRunAll
import proofs.«181465_j86723979641277_2_alg».proof.Proof.KernelValue
import proofs.«181465_j86723979641277_2_alg».proof.Proof.RefFrame
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- From memories that agree on the six arguments both idealized programs end at the loss of those arguments: the
    kernel program by its run with its value, the reference by its run read back, the two stated with one term. -/
theorem algebraic : Cert.algebraic_KernelIdeal_ReferenceIdeal := by
  intro m ρ m' ρ' _ hagree
  refine ⟨_, Cert.KernelIdeal.HandValue.kernel_run m ρ, ?_⟩
  refine (θ_run Cert.ReferenceIdeal.defs _ _).mono (fun r h c => ⟨(h c).1.trans ?_, (h c).2⟩) (Cert.Proof.Parts.ref_run m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, Cert.Proof.Parts.frame_ri, trivial, algebraic⟩

end Cert.Proof

end
